-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x16 : Shape := ⟨2, ![524288, 16]⟩
abbrev S16x32 : Shape := ⟨2, ![16, 32]⟩
abbrev S32 : Shape := ⟨1, ![32]⟩
abbrev S_ : Shape := ⟨0, ![]⟩

class Facts : Prop where
  bcast_S_S524288x16 : S_.BroadcastsInDim S524288x16 (![] : Fin 0 → Fin S524288x16.rank)
  reducesTo_S524288x16_S_d0_1 : S524288x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S524288x16 .f32) (main_arg1 : FVec F S16x32 .f32) (main_arg2 : FVec F S32 .f32) (main_arg3 : FVec F S32 .f32) (main_arg4 : FVec F S32 .f32) : IVec S_ 1 :=
  let main_v0 : FVec F S524288x16 .f32 := Host.absf main_arg0
  let main_cst : FVec F S_ .f32 := constant S_ .f32 0x7F800000#32
  let main_v1 : FVec F S524288x16 .f32 := broadcastInDim S524288x16 ![] bcast_S_S524288x16 main_cst
  let main_v2 : IVec S524288x16 1 := cmpf .olt main_v0 main_v1
  let main_c : IVec S_ 1 := constantI S_ 1 1#1
  let main_v3 : IVec S_ 1 := (fun x v => Host.reduce IntOp.andi x v reducesTo_S524288x16_S_d0_1 h_S_) main_v2 main_c
  let main_v4 : FVec F S16x32 .f32 := Host.absf main_arg1
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Kernel.lean ====
abbrev S524288x16 : Shape := ⟨2, ![524288, 16]⟩
abbrev S16x32 : Shape := ⟨2, ![16, 32]⟩
abbrev S32 : Shape := ⟨1, ![32]⟩
abbrev S_ : Shape := ⟨0, ![]⟩
abbrev S16 : Shape := ⟨1, ![16]⟩
abbrev S16x1 : Shape := ⟨2, ![16, 1]⟩
abbrev S8x8 : Shape := ⟨2, ![8, 8]⟩
abbrev S8x1x8x1 : Shape := ⟨4, ![8, 1, 8, 1]⟩
abbrev S1x16x1x32 : Shape := ⟨4, ![1, 16, 1, 32]⟩
abbrev S8x16x8x32 : Shape := ⟨4, ![8, 16, 8, 32]⟩
abbrev S128x256 : Shape := ⟨2, ![128, 256]⟩
abbrev S32x32 : Shape := ⟨2, ![32, 32]⟩
abbrev S1x32x1x32 : Shape := ⟨4, ![1, 32, 1, 32]⟩
abbrev S8x32x8x32 : Shape := ⟨4, ![8, 32, 8, 32]⟩
abbrev S256x256 : Shape := ⟨2, ![256, 256]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S65536x128 : Shape := ⟨2, ![65536, 128]⟩
abbrev S65536x256 : Shape := ⟨2, ![65536, 256]⟩
abbrev S524288x32 : Shape := ⟨2, ![524288, 32]⟩
abbrev S1024x128 : Shape := ⟨2, ![1024, 128]⟩
abbrev S1024x256 : Shape := ⟨2, ![1024, 256]⟩

abbrev nBuf : Space → Nat
  | .hbm => 55
  | .vmem => 9
  | .smem => 0
  | _ => 0

abbrev bufTy : (tb : Table) → Fin (tcTables nBuf tb) → BufTy
  | .hbm, ⟨0, _⟩ => ⟨S524288x16, .f32⟩
  | .hbm, ⟨1, _⟩ => ⟨S16x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S16, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x32, .f32⟩
  | .hbm, ⟨12, _⟩ => ⟨S16x32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S8x1x8x1, .f32⟩
  | .hbm, ⟨27, _⟩ => ⟨S1x16x1x32, .f32⟩
  | .hbm, ⟨28, _⟩ => ⟨S8x16x8x32, .f32⟩
  | .hbm, ⟨29, _⟩ => ⟨S8x16x8x32, .f32⟩
  | .hbm, ⟨30, _⟩ => ⟨S8x16x8x32, .f32⟩
  | .hbm, ⟨31, _⟩ => ⟨S128x256, .f32⟩
  | .hbm, ⟨32, _⟩ => ⟨S_, .f32⟩
  | .hbm, ⟨33, _⟩ => ⟨S32x32, .f32⟩
  | .hbm, ⟨34, _⟩ => ⟨S8x1x8x1, .f32⟩
  | .hbm, ⟨35, _⟩ => ⟨S1x32x1x32, .f32⟩
  | .hbm, ⟨36, _⟩ => ⟨S8x32x8x32, .f32⟩
  | .hbm, ⟨37, _⟩ => ⟨S8x32x8x32, .f32⟩
  | .hbm, ⟨38, _⟩ => ⟨S8x32x8x32, .f32⟩
  | .hbm, ⟨39, _⟩ => ⟨S256x256, .f32⟩
  | .hbm, ⟨40, _⟩ => ⟨S1x32, .f32⟩
  | .hbm, ⟨41, _⟩ => ⟨S8x32, .f32⟩
  | .hbm, ⟨42, _⟩ => ⟨S256, .f32⟩
  | .hbm, ⟨43, _⟩ => ⟨S1x256, .f32⟩
  | .hbm, ⟨44, _⟩ => ⟨S1x32, .f32⟩
  | .hbm, ⟨45, _⟩ => ⟨S8x32, .f32⟩
  | .hbm, ⟨46, _⟩ => ⟨S256, .f32⟩
  | .hbm, ⟨47, _⟩ => ⟨S1x256, .f32⟩
  | .hbm, ⟨48, _⟩ => ⟨S1x32, .f32⟩
  | .hbm, ⟨49, _⟩ => ⟨S8x32, .f32⟩
  | .hbm, ⟨50, _⟩ => ⟨S256, .f32⟩
  | .hbm, ⟨51, _⟩ => ⟨S1x256, .f32⟩
  | .hbm, ⟨52, _⟩ => ⟨S65536x128, .f32⟩
  | .hbm, ⟨53, _⟩ => ⟨S65536x256, .f32⟩
  | .hbm, ⟨54, _⟩ => ⟨S524288x32, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S1024x256, .f32⟩
  | .local _ .vmem, ⟨8, _⟩ => ⟨S1024x256, .f32⟩
  | _, _ => ⟨S524288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst_1 : Ref sig .tc := ⟨.hbm, 13, rfl⟩
abbrev main_call0_v6 : Ref sig .tc := ⟨.hbm, 14, rfl⟩
abbrev main_call0_cst_2 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_v16 : Ref sig .tc := ⟨.hbm, 31, rfl⟩
abbrev main_call0_cst_3 : Ref sig .tc := ⟨.hbm, 32, rfl⟩
abbrev main_call0_v17 : Ref sig .tc := ⟨.hbm, 33, rfl⟩
abbrev main_call0_call1_v0 : Ref sig .tc := ⟨.hbm, 34, rfl⟩
abbrev main_call0_call1_v1 : Ref sig .tc := ⟨.hbm, 35, rfl⟩
abbrev main_call0_call1_v2 : Ref sig .tc := ⟨.hbm, 36, rfl⟩
abbrev main_call0_call1_v3 : Ref sig .tc := ⟨.hbm, 37, rfl⟩
abbrev main_call0_call1_v4 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S16x32_S16_d1 : S16x32.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x32_0_1 : S16x1.BroadcastsInDim S16x32 (![0, 1] : Fin 2 → Fin S16x32.rank)
  reducesTo_S32_S_d0 : S32.ReducesTo [0] S_
  bcast_S_S32 : S_.BroadcastsInDim S32 (![] : Fin 0 → Fin S32.rank)
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x32_S1x16x1x32_1_3 : S16x32.BroadcastsInDim S1x16x1x32 (![1, 3] : Fin 2 → Fin S1x16x1x32.rank)
  bcast_S8x1x8x1_S8x16x8x32_0_1_2_3 : S8x1x8x1.BroadcastsInDim S8x16x8x32 (![0, 1, 2, 3] : Fin 4 → Fin S8x16x8x32.rank)
  bcast_S1x16x1x32_S8x16x8x32_0_1_2_3 : S1x16x1x32.BroadcastsInDim S8x16x8x32 (![0, 1, 2, 3] : Fin 4 → Fin S8x16x8x32.rank)
  shapeCasts_S8x16x8x32_S128x256 : S8x16x8x32.ShapeCasts S128x256
  bcast_S_S32x32 : S_.BroadcastsInDim S32x32 (![] : Fin 0 → Fin S32x32.rank)
  bcast_S32x32_S1x32x1x32_1_3 : S32x32.BroadcastsInDim S1x32x1x32 (![1, 3] : Fin 2 → Fin S1x32x1x32.rank)
  bcast_S8x1x8x1_S8x32x8x32_0_1_2_3 : S8x1x8x1.BroadcastsInDim S8x32x8x32 (![0, 1, 2, 3] : Fin 4 → Fin S8x32x8x32.rank)
  bcast_S1x32x1x32_S8x32x8x32_0_1_2_3 : S1x32x1x32.BroadcastsInDim S8x32x8x32 (![0, 1, 2, 3] : Fin 4 → Fin S8x32x8x32.rank)
  shapeCasts_S8x32x8x32_S256x256 : S8x32x8x32.ShapeCasts S256x256
  shapeCasts_S32_S1x32 : S32.ShapeCasts S1x32
  bcast_S1x32_S8x32_0_1 : S1x32.BroadcastsInDim S8x32 (![0, 1] : Fin 2 → Fin S8x32.rank)
  shapeCasts_S8x32_S256 : S8x32.ShapeCasts S256
  shapeCasts_S256_S1x256 : S256.ShapeCasts S1x256
  shapeCasts_S524288x16_S65536x128 : S524288x16.ShapeCasts S65536x128
  shapeCasts_S65536x256_S524288x32 : S65536x256.ShapeCasts S524288x32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S1024x256_0_0 : ∀ a, (![0, 0] : Fin 2 → Nat) a + S1024x256.size a ≤ S1024x256.size a
  h_S1024x256 : 0 < S1024x256.numel
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_call0_v31) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v22) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v30) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v32) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S524288x16 : Shape := ⟨2, ![524288, 16]⟩
abbrev S16x32 : Shape := ⟨2, ![16, 32]⟩
abbrev S32 : Shape := ⟨1, ![32]⟩
abbrev S131072x64 : Shape := ⟨2, ![131072, 64]⟩
abbrev S4x4 : Shape := ⟨2, ![4, 4]⟩
abbrev S_ : Shape := ⟨0, ![]⟩
abbrev S4x1x4x1 : Shape := ⟨4, ![4, 1, 4, 1]⟩
abbrev S1x16x1x32 : Shape := ⟨4, ![1, 16, 1, 32]⟩
abbrev S4x16x4x32 : Shape := ⟨4, ![4, 16, 4, 32]⟩
abbrev S64x128 : Shape := ⟨2, ![64, 128]⟩
abbrev S32x32 : Shape := ⟨2, ![32, 32]⟩
abbrev S1x32x1x32 : Shape := ⟨4, ![1, 32, 1, 32]⟩
abbrev S4x32x4x32 : Shape := ⟨4, ![4, 32, 4, 32]⟩
abbrev S128x128 : Shape := ⟨2, ![128, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S131072x128 : Shape := ⟨2, ![131072, 128]⟩
abbrev S524288x32 : Shape := ⟨2, ![524288, 32]⟩
abbrev S1024x64 : Shape := ⟨2, ![1024, 64]⟩
abbrev S1024x128 : Shape := ⟨2, ![1024, 128]⟩

abbrev nBuf : Space → Nat
  | .hbm => 41
  | .vmem => 9
  | .smem => 0
  | _ => 0

abbrev bufTy : (tb : Table) → Fin (tcTables nBuf tb) → BufTy
  | .hbm, ⟨0, _⟩ => ⟨S524288x16, .f32⟩
  | .hbm, ⟨1, _⟩ => ⟨S16x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S131072x64, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S4x1x4x1, .f32⟩
  | .hbm, ⟨14, _⟩ => ⟨S1x16x1x32, .f32⟩
  | .hbm, ⟨15, _⟩ => ⟨S4x16x4x32, .f32⟩
  | .hbm, ⟨16, _⟩ => ⟨S4x16x4x32, .f32⟩
  | .hbm, ⟨17, _⟩ => ⟨S4x16x4x32, .f32⟩
  | .hbm, ⟨18, _⟩ => ⟨S64x128, .f32⟩
  | .hbm, ⟨19, _⟩ => ⟨S_, .f32⟩
  | .hbm, ⟨20, _⟩ => ⟨S32x32, .f32⟩
  | .hbm, ⟨21, _⟩ => ⟨S4x1x4x1, .f32⟩
  | .hbm, ⟨22, _⟩ => ⟨S1x32x1x32, .f32⟩
  | .hbm, ⟨23, _⟩ => ⟨S4x32x4x32, .f32⟩
  | .hbm, ⟨24, _⟩ => ⟨S4x32x4x32, .f32⟩
  | .hbm, ⟨25, _⟩ => ⟨S4x32x4x32, .f32⟩
  | .hbm, ⟨26, _⟩ => ⟨S128x128, .f32⟩
  | .hbm, ⟨27, _⟩ => ⟨S1x32, .f32⟩
  | .hbm, ⟨28, _⟩ => ⟨S4x32, .f32⟩
  | .hbm, ⟨29, _⟩ => ⟨S128, .f32⟩
  | .hbm, ⟨30, _⟩ => ⟨S1x128, .f32⟩
  | .hbm, ⟨31, _⟩ => ⟨S1x32, .f32⟩
  | .hbm, ⟨32, _⟩ => ⟨S4x32, .f32⟩
  | .hbm, ⟨33, _⟩ => ⟨S128, .f32⟩
  | .hbm, ⟨34, _⟩ => ⟨S1x128, .f32⟩
  | .hbm, ⟨35, _⟩ => ⟨S1x32, .f32⟩
  | .hbm, ⟨36, _⟩ => ⟨S4x32, .f32⟩
  | .hbm, ⟨37, _⟩ => ⟨S128, .f32⟩
  | .hbm, ⟨38, _⟩ => ⟨S1x128, .f32⟩
  | .hbm, ⟨39, _⟩ => ⟨S131072x128, .f32⟩
  | .hbm, ⟨40, _⟩ => ⟨S524288x32, .f32⟩
  | .local _ .vmem, ⟨0, _⟩ => ⟨S1024x64, .f32⟩
  | .local _ .vmem, ⟨1, _⟩ => ⟨S1024x64, .f32⟩
  | .local _ .vmem, ⟨2, _⟩ => ⟨S64x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1024x128, .f32⟩
  | .local _ .vmem, ⟨8, _⟩ => ⟨S1024x128, .f32⟩
  | _, _ => ⟨S524288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_v7 : Ref sig .tc := ⟨.hbm, 18, rfl⟩
abbrev main_call0_cst : Ref sig .tc := ⟨.hbm, 19, rfl⟩
abbrev main_call0_v8 : Ref sig .tc := ⟨.hbm, 20, rfl⟩
abbrev main_call0_call1_v0 : Ref sig .tc := ⟨.hbm, 21, rfl⟩
abbrev main_call0_call1_v1 : Ref sig .tc := ⟨.hbm, 22, rfl⟩
abbrev main_call0_call1_v2 : Ref sig .tc := ⟨.hbm, 23, rfl⟩
abbrev main_call0_call1_v3 : Ref sig .tc := ⟨.hbm, 24, rfl⟩
abbrev main_call0_call1_v4 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S524288x16_S131072x64 : S524288x16.ShapeCasts S131072x64
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S16x32_S1x16x1x32_1_3 : S16x32.BroadcastsInDim S1x16x1x32 (![1, 3] : Fin 2 → Fin S1x16x1x32.rank)
  bcast_S4x1x4x1_S4x16x4x32_0_1_2_3 : S4x1x4x1.BroadcastsInDim S4x16x4x32 (![0, 1, 2, 3] : Fin 4 → Fin S4x16x4x32.rank)
  bcast_S1x16x1x32_S4x16x4x32_0_1_2_3 : S1x16x1x32.BroadcastsInDim S4x16x4x32 (![0, 1, 2, 3] : Fin 4 → Fin S4x16x4x32.rank)
  shapeCasts_S4x16x4x32_S64x128 : S4x16x4x32.ShapeCasts S64x128
  bcast_S_S32x32 : S_.BroadcastsInDim S32x32 (![] : Fin 0 → Fin S32x32.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  shapeCasts_S131072x128_S524288x32 : S131072x128.ShapeCasts S524288x32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  dot_S1024x64_S64x128_S1024x128_1_0_0_1_n_n_wf : DotDims.WF S1024x64 S64x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S131072x64.size a
  hwx0_0 : ∀ i : grid0.Coords, EltTy.bits .f32 = 32 ∨ (Rect.block (s := S131072x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S131072x128.size a
  hwx0_6 : ∀ i : grid0.Coords, EltTy.bits .f32 = 32 ∨ (Rect.block (s := S131072x128) S1024x128.size (cc0_transform_6 i) (hinb0_6 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_call0_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v22) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.Spec.lean ====
/-
  The two programs as functions of the argument arrays, entry by entry, on the extended reals.

  Both are a linear layer followed by a layer normalisation over the 32 hidden units and a rectifier, for each of the
  524288 samples `s` and each hidden unit `j`:

  * the first centres the weights and the bias beforehand: with `wc a j = w a j - (∑ j', w a j') / 32` and
    `bc j = b j - (∑ j', b j') / 32` its centred activation is `dK s j = (∑ a, x s a * wc a j) + bc j`;
  * the second centres the activation afterwards: with `h s j = (∑ a, x s a * w a j) + b j` and
    `mean s = ∑ j', h s j' * (1/32)` its centred activation is `dR s j = h s j - mean s`.

  After that both take the variance `∑ j', (d s j' * d s j') * (1/32)`, scale by `rsqrt (var + ε)` and `γ j`, add `β j`
  and take the maximum with zero; the first multiplies `d * (rsqrt * γ)`, the second `(d * rsqrt) * γ`.
  The float literals stay as their words: 32, 1/32 and ε are the same words wherever they occur.
-/
import Idealize.ShloMosaic.PureOps.Ideal
import Idealize.ShloMosaic.Lib.ValueIdx

noncomputable section

namespace Cert.Spec

open Idealize.ShloMosaic

/-- The word of 32. -/
abbrev c32 : EReal := Ideal.ofBits .f32 0x42000000#32
/-- The word of 1/32. -/
abbrev cInv32 : EReal := Ideal.ofBits .f32 0x3D000000#32
/-- The word of the variance's ε. -/
abbrev cEps : EReal := Ideal.ofBits .f32 0x3727C5AC#32

variable (x : Fin 524288 → Fin 16 → EReal) (w : Fin 16 → Fin 32 → EReal) (b γ β : Fin 32 → EReal)

/-! ## Centred beforehand -/

/-- The weights with each row's mean over the hidden units taken off. -/
def wc (a : Fin 16) (j : Fin 32) : EReal := w a j - Ideal.div (∑ j' : Fin 32, w a j') c32
/-- The bias with its mean taken off. -/
def bc (j : Fin 32) : EReal := b j - Ideal.div (∑ j' : Fin 32, b j') c32
/-- The centred activation of sample `s` at hidden unit `j`. -/
def dK (s : Fin 524288) (j : Fin 32) : EReal := (∑ a : Fin 16, x s a * wc w a j) + bc b j
/-- Its variance over the hidden units. -/
def varK (s : Fin 524288) : EReal := ∑ j' : Fin 32, (dK x w b s j' * dK x w b s j') * cInv32
/-- The result. -/
def outK (s : Fin 524288) (j : Fin 32) : EReal :=
  max (dK x w b s j * (Ideal.rsqrt (varK x w b s + cEps) * γ j) + β j) 0

/-! ## Centred afterwards -/

/-- The activation of sample `s` at hidden unit `j`. -/
def hR (s : Fin 524288) (j : Fin 32) : EReal := (∑ a : Fin 16, x s a * w a j) + b j
/-- Its mean over the hidden units. -/
def meanR (s : Fin 524288) : EReal := ∑ j' : Fin 32, hR x w b s j' * cInv32
/-- The centred activation. -/
def dR (s : Fin 524288) (j : Fin 32) : EReal := hR x w b s j - meanR x w b s
/-- Its variance over the hidden units. -/
def varR (s : Fin 524288) : EReal := ∑ j' : Fin 32, (dR x w b s j' * dR x w b s j') * cInv32
/-- The result. -/
def outR (s : Fin 524288) (j : Fin 32) : EReal :=
  max (dR x w b s j * Ideal.rsqrt (varR x w b s + cEps) * γ j + β j) 0

end Cert.Spec

end
-- ==== Proof.LibVarianceLaw.lean ====
/- A general law of the extended reals at the ideal instance: for finitely many FINITE values, the
   one-pass form of the unbiased variance, `(Q - S·S/N)/(N-1)` with `S = ∑ x` and `Q = ∑ x²`, equals the
   two-pass form `(∑ (x - S/N)²)/(N-1)`. Over the reals this is the identity
   `∑ (x - μ)² = ∑ x² - 2μ ∑ x + N μ² = Q - S²/N` at `μ = S/N`. It fails at the infinities (both sides
   meet `∞ - ∞` differently), which is why every value is assumed to be a real. -/
import Idealize.ShloMosaic.PureOps.Ideal

noncomputable section

namespace Cert.VarianceLaw

open Idealize.ShloMosaic

/-- The coercion `ℝ → EReal` commutes with finite sums: it is additive and sends `0` to `0`. -/
theorem coe_sum {ι : Type*} (s : Finset ι) (f : ι → ℝ) :
    (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- The real identity behind the law: `Q - S·S/N = ∑ (x - S/N)²` when `N` counts the terms. -/
theorem real_variance_identity {ι : Type*} [Fintype ι] (r : ι → ℝ) (N : ℝ)
    (hN : N = (Fintype.card ι : ℝ)) (h0 : N ≠ 0) :
    (∑ i, r i * r i) - ((∑ i, r i) * (∑ i, r i)) * (1 / N)
      = ∑ i, (r i - (∑ j, r j) * (1 / N)) * (r i - (∑ j, r j) * (1 / N)) := by
  set S : ℝ := ∑ j, r j with hS
  have expand : ∀ i, (r i - S * (1 / N)) * (r i - S * (1 / N))
      = r i * r i - (2 * (S * (1 / N))) * r i + (S * (1 / N)) * (S * (1 / N)) := fun i => by ring
  simp only [expand]
  rw [Finset.sum_add_distrib, Finset.sum_sub_distrib, ← Finset.mul_sum, Finset.sum_const,
    Finset.card_univ, nsmul_eq_mul, ← hN, ← hS]
  field_simp
  ring

/-- **The variance law.** For finite values `x i` and `N` the number of terms (`N ≠ 0`, `N ≠ 1`),
    the one-pass unbiased variance equals the two-pass one, every division read as `Ideal.div`. -/
theorem variance_law {ι : Type*} [Fintype ι] (x : ι → EReal) (hx : ∀ i, ∃ r : ℝ, x i = (r : EReal))
    (N : ℝ) (hN : N = (Fintype.card ι : ℝ)) (h0 : N ≠ 0) (h1 : N - 1 ≠ 0) :
    Ideal.div ((∑ i, x i * x i) - Ideal.div ((∑ i, x i) * (∑ i, x i)) (N : EReal))
        ((N : EReal) - ((1 : ℝ) : EReal))
      = Ideal.div (∑ i, (x i - Ideal.div (∑ j, x j) (N : EReal))
          * (x i - Ideal.div (∑ j, x j) (N : EReal))) (((N - 1 : ℝ)) : EReal) := by
  choose r hr using hx
  obtain rfl : x = fun i => ((r i : ℝ) : EReal) := funext hr
  simp only [Ideal.div_coe h0, Ideal.div_coe h1, ← EReal.coe_mul, ← coe_sum, ← EReal.coe_sub]
  rw [real_variance_identity r N hN h0]

end Cert.VarianceLaw

end
-- ==== Proof.Algebra.lean ====
/-
  The two specification functions agree when the inputs, the weights and the bias are real numbers.

  The mean over the hidden units is linear: the mean of `(∑ a, x a * w a j) + b j` over `j` is
  `(∑ a, x a * mean_j (w a j)) + mean_j (b j)`, so taking the mean off the weights and the bias beforehand gives the same
  centred activation as taking the mean off the activation afterwards. This uses distributivity and the exchange of two
  finite sums, which hold for real numbers and fail at the infinities; so the entries are first written as reals.
  The variances are then sums of the same terms, and the two results differ only by the association of a product of
  three extended reals, which is associative everywhere. The scale `γ` and shift `β` may be any extended reals.
-/
import proofs.«176657_g2000305897215060_pallasbulk_1035_2_alg».proof.Proof.Spec
import proofs.«176657_g2000305897215060_pallasbulk_1035_2_alg».proof.Proof.LibVarianceLaw

noncomputable section

namespace Cert.Spec

open Idealize.ShloMosaic

/-- The word of 32 denotes the real 32. -/
theorem c32_eq : c32 = ((32 : ℝ) : EReal) := by
  simp [c32, Ideal.ofBits, Ideal.ieee, -EReal.coe_mul]; norm_num

/-- The word of 1/32 denotes the real 1/32. -/
theorem cInv32_eq : cInv32 = ((1 / 32 : ℝ) : EReal) := by
  simp [cInv32, Ideal.ofBits, Ideal.ieee, -EReal.coe_mul]; norm_num

/-- Over the reals: centring the weights and the bias first, or the activation afterwards, is the same. -/
theorem real_centre (xs : Fin 16 → ℝ) (wr : Fin 16 → Fin 32 → ℝ) (br : Fin 32 → ℝ) (j : Fin 32) :
    (∑ a : Fin 16, xs a * (wr a j - (∑ j' : Fin 32, wr a j') * (1 / 32))) + (br j - (∑ j' : Fin 32, br j') * (1 / 32))
      = ((∑ a : Fin 16, xs a * wr a j) + br j)
          - ∑ j' : Fin 32, ((∑ a : Fin 16, xs a * wr a j') + br j') * (1 / 32) := by
  have h1 : ∑ j' : Fin 32, ∑ a : Fin 16, xs a * wr a j' = ∑ a : Fin 16, xs a * ∑ j' : Fin 32, wr a j' := by
    rw [Finset.sum_comm]
    exact Finset.sum_congr rfl fun a _ => (Finset.mul_sum _ _ _).symm
  have h2 : ∑ j' : Fin 32, ((∑ a : Fin 16, xs a * wr a j') + br j') * (1 / 32)
      = (∑ a : Fin 16, xs a * ∑ j' : Fin 32, wr a j') * (1 / 32) + (∑ j' : Fin 32, br j') * (1 / 32) := by
    rw [← Finset.sum_mul, Finset.sum_add_distrib, h1, add_mul]
  have h3 : ∑ a : Fin 16, xs a * (wr a j - (∑ j' : Fin 32, wr a j') * (1 / 32))
      = (∑ a : Fin 16, xs a * wr a j) - (∑ a : Fin 16, xs a * ∑ j' : Fin 32, wr a j') * (1 / 32) := by
    rw [Finset.sum_mul, ← Finset.sum_sub_distrib]
    exact Finset.sum_congr rfl fun a _ => by ring
  rw [h2, h3]; ring

section Lift

variable (xr : Fin 524288 → Fin 16 → ℝ) (wr : Fin 16 → Fin 32 → ℝ) (br : Fin 32 → ℝ)

/-- The centred weights of real weights are real. -/
theorem wc_coe (a : Fin 16) (j : Fin 32) :
    wc (fun a j => ((wr a j : ℝ) : EReal)) a j = ((wr a j - (∑ j' : Fin 32, wr a j') * (1 / 32) : ℝ) : EReal) := by
  unfold wc
  rw [c32_eq, Ideal.div_coe (by norm_num : (32 : ℝ) ≠ 0), ← Cert.VarianceLaw.coe_sum, ← EReal.coe_mul, ← EReal.coe_sub]

/-- The centred bias of a real bias is real. -/
theorem bc_coe (j : Fin 32) :
    bc (fun j => ((br j : ℝ) : EReal)) j = ((br j - (∑ j' : Fin 32, br j') * (1 / 32) : ℝ) : EReal) := by
  unfold bc
  rw [c32_eq, Ideal.div_coe (by norm_num : (32 : ℝ) ≠ 0), ← Cert.VarianceLaw.coe_sum, ← EReal.coe_mul, ← EReal.coe_sub]

/-- The activation centred beforehand, on real entries. -/
theorem dK_coe (s : Fin 524288) (j : Fin 32) :
    dK (fun s a => ((xr s a : ℝ) : EReal)) (fun a j => ((wr a j : ℝ) : EReal)) (fun j => ((br j : ℝ) : EReal)) s j
      = (((∑ a : Fin 16, xr s a * (wr a j - (∑ j' : Fin 32, wr a j') * (1 / 32)))
          + (br j - (∑ j' : Fin 32, br j') * (1 / 32)) : ℝ) : EReal) := by
  unfold dK
  simp only [wc_coe, bc_coe, ← EReal.coe_mul]
  rw [← Cert.VarianceLaw.coe_sum, ← EReal.coe_add]

/-- The activation, on real entries. -/
theorem hR_coe (s : Fin 524288) (j : Fin 32) :
    hR (fun s a => ((xr s a : ℝ) : EReal)) (fun a j => ((wr a j : ℝ) : EReal)) (fun j => ((br j : ℝ) : EReal)) s j
      = (((∑ a : Fin 16, xr s a * wr a j) + br j : ℝ) : EReal) := by
  unfold hR
  simp only [← EReal.coe_mul]
  rw [← Cert.VarianceLaw.coe_sum, ← EReal.coe_add]

/-- The activation centred afterwards, on real entries. -/
theorem dR_coe (s : Fin 524288) (j : Fin 32) :
    dR (fun s a => ((xr s a : ℝ) : EReal)) (fun a j => ((wr a j : ℝ) : EReal)) (fun j => ((br j : ℝ) : EReal)) s j
      = ((((∑ a : Fin 16, xr s a * wr a j) + br j)
          - ∑ j' : Fin 32, ((∑ a : Fin 16, xr s a * wr a j') + br j') * (1 / 32) : ℝ) : EReal) := by
  unfold dR meanR
  simp only [hR_coe, cInv32_eq, ← EReal.coe_mul]
  rw [← Cert.VarianceLaw.coe_sum, ← EReal.coe_sub]

/-- On real entries the two centred activations are equal. -/
theorem dK_eq_dR_coe (s : Fin 524288) (j : Fin 32) :
    dK (fun s a => ((xr s a : ℝ) : EReal)) (fun a j => ((wr a j : ℝ) : EReal)) (fun j => ((br j : ℝ) : EReal)) s j
      = dR (fun s a => ((xr s a : ℝ) : EReal)) (fun a j => ((wr a j : ℝ) : EReal)) (fun j => ((br j : ℝ) : EReal)) s j := by
  rw [dK_coe, dR_coe, real_centre]

end Lift

variable (x : Fin 524288 → Fin 16 → EReal) (w : Fin 16 → Fin 32 → EReal) (b γ β : Fin 32 → EReal)

/-- When the inputs, the weights and the bias are real, the two programs' functions are one. -/
theorem outK_eq_outR (hx : ∀ s a, ∃ r : ℝ, x s a = (r : EReal)) (hw : ∀ a j, ∃ r : ℝ, w a j = (r : EReal))
    (hb : ∀ j, ∃ r : ℝ, b j = (r : EReal)) (s : Fin 524288) (j : Fin 32) :
    outK x w b γ β s j = outR x w b γ β s j := by
  choose xr hxr using hx
  choose wr hwr using hw
  choose br hbr using hb
  obtain rfl : x = fun s a => ((xr s a : ℝ) : EReal) := funext fun s => funext fun a => hxr s a
  obtain rfl : w = fun a j => ((wr a j : ℝ) : EReal) := funext fun a => funext fun j => hwr a j
  obtain rfl : b = fun j => ((br j : ℝ) : EReal) := funext fun j => hbr j
  have hd : ∀ j', dK (fun s a => ((xr s a : ℝ) : EReal)) (fun a j => ((wr a j : ℝ) : EReal)) (fun j => ((br j : ℝ) : EReal)) s j'
      = dR (fun s a => ((xr s a : ℝ) : EReal)) (fun a j => ((wr a j : ℝ) : EReal)) (fun j => ((br j : ℝ) : EReal)) s j' :=
    fun j' => dK_eq_dR_coe xr wr br s j'
  have hv : varK (fun s a => ((xr s a : ℝ) : EReal)) (fun a j => ((wr a j : ℝ) : EReal)) (fun j => ((br j : ℝ) : EReal)) s
      = varR (fun s a => ((xr s a : ℝ) : EReal)) (fun a j => ((wr a j : ℝ) : EReal)) (fun j => ((br j : ℝ) : EReal)) s := by
    unfold varK varR
    exact Finset.sum_congr rfl fun j' _ => by rw [hd j']
  unfold outK outR
  rw [hd j, hv, mul_assoc]

end Cert.Spec

end
-- ==== Proof.FiniteEntries.lean ====
/-
  From the precondition to real entries.

  The precondition says, for each of the five argument arrays, that every entry's absolute value is below `+∞`, all of
  these joined by `and`. An extended real whose absolute value `max a (-a)` is below `+∞` is neither infinity, hence a
  real number. Only the inputs, the weights and the bias are needed later.
-/
import proofs.«176657_g2000305897215060_pallasbulk_1035_2_alg».proof.Pre_finite_inputs
import Idealize.ShloMosaic.PureOps.Ideal.Laws
import Idealize.ShloMosaic.Lib.ReduceAll
import Idealize.ShloMosaic.Lib.ValueIdx

noncomputable section

namespace Cert.FiniteEntries

open Idealize.ShloMosaic Cert.Pre_finite_inputs

instance : Subsingleton S_.Idx := ⟨fun a b => funext fun d => d.elim0⟩

/-- The word of `+∞`. -/
theorem ofBits_inf : Ideal.ofBits .f32 0x7F800000#32 = ⊤ := by
  simp [Ideal.ofBits, Ideal.ieee]

/-- An extended real whose absolute value compares below `+∞` is a real number. -/
theorem real_of_abs_lt (a : EReal)
    (h : Ideal.cmp .olt (max a (-a)) (Ideal.ofBits .f32 0x7F800000#32) = 1#1) : ∃ r : ℝ, a = (r : EReal) := by
  rw [ofBits_inf] at h
  have hlt : max a (-a) < ⊤ := by
    by_contra hn
    simp [Ideal.cmp, hn] at h
  induction a using EReal.rec with
  | bot => simp at hlt
  | coe r => exact ⟨r, rfl⟩
  | top => simp at hlt

/-- Under the precondition every input, weight and bias entry is a real number. -/
theorem real_entries [Cert.Pre_finite_inputs.Facts] (x : FVec Ideal S524288x16 .f32) (w : FVec Ideal S16x32 .f32)
    (b γ β : FVec Ideal S32 .f32) (h : Cert.Pre_finite_inputs.fn (F := Ideal) x w b γ β = fun _ => 1#1) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [Cert.Pre_finite_inputs.fn, Cert.Pre_finite_inputs.fn_part1] at h0
  obtain ⟨h1, -⟩ := IntOp.andi_eq_one.mp h0
  obtain ⟨h2, -⟩ := IntOp.andi_eq_one.mp h1
  obtain ⟨h3, hb⟩ := IntOp.andi_eq_one.mp h2
  obtain ⟨hx, hw⟩ := IntOp.andi_eq_one.mp h3
  exact ⟨fun i => real_of_abs_lt (x i) (Host.reduce_andi_all _ _ _ _ _ hx i),
    fun i => real_of_abs_lt (w i) (Host.reduce_andi_all _ _ _ _ _ hw i),
    fun i => real_of_abs_lt (b i) (Host.reduce_andi_all _ _ _ _ _ hb i)⟩

end Cert.FiniteEntries

end
-- ==== Proof.Claims.lean ====
/-
  The claims, given what each idealized program leaves in its result array.

  The three frames are the generated ones, and the idealization rewrote nothing. For the value claim: the first program
  ends with its result array at `Spec.outK` of its argument arrays and the second at `Spec.outR` of its own; the two
  memories agree on the arguments, the precondition makes the inputs, weights and bias real numbers, and on real numbers
  the two functions are one (`Spec.outK_eq_outR`).
-/
import proofs.«176657_g2000305897215060_pallasbulk_1035_2_alg».proof.Defs
import proofs.«176657_g2000305897215060_pallasbulk_1035_2_alg».proof.Proof.Gen.Kernel.Frame
import proofs.«176657_g2000305897215060_pallasbulk_1035_2_alg».proof.Proof.Gen.KernelIdeal.Frame
import proofs.«176657_g2000305897215060_pallasbulk_1035_2_alg».proof.Proof.Gen.ReferenceIdeal.Frame
import proofs.«176657_g2000305897215060_pallasbulk_1035_2_alg».proof.Proof.Gen.Pre_finite_inputs
import proofs.«176657_g2000305897215060_pallasbulk_1035_2_alg».proof.Proof.Algebra
import proofs.«176657_g2000305897215060_pallasbulk_1035_2_alg».proof.Proof.FiniteEntries

noncomputable section

namespace Cert.Proof.Claims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- The value claim from the two runs. -/
theorem algebraic_of_runs
    (hK : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v0)
            = (fun i => Cert.Spec.outK
                (fun s a => (m ((c.tc : Thread Cert.KernelIdeal.nD Cert.KernelIdeal.τ).loc Cert.KernelIdeal.main_arg0) : Cert.KernelIdeal.S524288x16.Idx → EReal) (ValueIdx.ix2 s a))
                (fun a j => (m ((c.tc : Thread Cert.KernelIdeal.nD Cert.KernelIdeal.τ).loc Cert.KernelIdeal.main_arg1) : Cert.KernelIdeal.S16x32.Idx → EReal) (ValueIdx.ix2 a j))
                (fun j => (m ((c.tc : Thread Cert.KernelIdeal.nD Cert.KernelIdeal.τ).loc Cert.KernelIdeal.main_arg2) : Cert.KernelIdeal.S32.Idx → EReal) (ValueIdx.ix1 j))
                (fun j => (m ((c.tc : Thread Cert.KernelIdeal.nD Cert.KernelIdeal.τ).loc Cert.KernelIdeal.main_arg3) : Cert.KernelIdeal.S32.Idx → EReal) (ValueIdx.ix1 j))
                (fun j => (m ((c.tc : Thread Cert.KernelIdeal.nD Cert.KernelIdeal.τ).loc Cert.KernelIdeal.main_arg4) : Cert.KernelIdeal.S32.Idx → EReal) (ValueIdx.ix1 j))
                (i 0) (i 1))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)))
    (hR : ∀ (m : (ℓ : Loc Cert.ReferenceIdeal.nD Cert.ReferenceIdeal.τ Cert.ReferenceIdeal.sig) → Buf (Elt Ideal) ℓ)
        (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        (fun r => ∀ c : Dev Cert.ReferenceIdeal.nD,
          r.2.mem ((c.tc : Thread Cert.ReferenceIdeal.nD Cert.ReferenceIdeal.τ).loc Cert.ReferenceIdeal.main_v0)
            = (fun i => Cert.Spec.outR
                (fun s a => (m ((c.tc : Thread Cert.ReferenceIdeal.nD Cert.ReferenceIdeal.τ).loc Cert.ReferenceIdeal.main_arg0) : Cert.ReferenceIdeal.S524288x16.Idx → EReal) (ValueIdx.ix2 s a))
                (fun a j => (m ((c.tc : Thread Cert.ReferenceIdeal.nD Cert.ReferenceIdeal.τ).loc Cert.ReferenceIdeal.main_arg1) : Cert.ReferenceIdeal.S16x32.Idx → EReal) (ValueIdx.ix2 a j))
                (fun j => (m ((c.tc : Thread Cert.ReferenceIdeal.nD Cert.ReferenceIdeal.τ).loc Cert.ReferenceIdeal.main_arg2) : Cert.ReferenceIdeal.S32.Idx → EReal) (ValueIdx.ix1 j))
                (fun j => (m ((c.tc : Thread Cert.ReferenceIdeal.nD Cert.ReferenceIdeal.τ).loc Cert.ReferenceIdeal.main_arg3) : Cert.ReferenceIdeal.S32.Idx → EReal) (ValueIdx.ix1 j))
                (fun j => (m ((c.tc : Thread Cert.ReferenceIdeal.nD Cert.ReferenceIdeal.τ).loc Cert.ReferenceIdeal.main_arg4) : Cert.ReferenceIdeal.S32.Idx → EReal) (ValueIdx.ix1 j))
                (i 0) (i 1))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))) :
    Cert.algebraic_KernelIdeal_ReferenceIdeal := by
  intro m ρ m' ρ' hpre hagree
  refine ⟨_, hK m ρ, ?_⟩
  refine (θ_run Cert.ReferenceIdeal.defs _ _).mono (fun _ h c => ⟨(h c).1.trans ?_, (h c).2⟩) (hR m' ρ')
  obtain ⟨hx, hw, hb⟩ := Cert.FiniteEntries.real_entries _ _ _ _ _ (hpre c)
  rw [(hagree c).1, (hagree c).2.1, (hagree c).2.2.1, (hagree c).2.2.2.1, (hagree c).2.2.2.2]
  funext i
  exact (Cert.Spec.outK_eq_outR _ _ _ _ _ (fun s a => hx (ValueIdx.ix2 s a)) (fun a j => hw (ValueIdx.ix2 a j))
    (fun j => hb (ValueIdx.ix1 j)) (i 0) (i 1)).symm

end Cert.Proof.Claims

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«176657_g2000305897215060_pallasbulk_1035_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.KBody.lean ====
/-
  The body's stored value, entry by entry.

  The body multiplies its 1024×128 block of packed samples by the 128×256 packed weights, adds the packed bias row,
  squares, multiplies the squares by the 256×256 averaging matrix, adds ε, takes the reciprocal square root, scales by
  the packed gain row, multiplies the centred activation by that, adds the packed offset row and takes the maximum with
  zero. On the extended reals each matrix product into the zero accumulator is, at (p, q), the plain sum over the
  contracted position; a row [1, 256] broadcast down the 1024 rows reads its one row; everything else is entry by
  entry. So the stored value at (p, q) is the expression below in the entries of the six blocks.
-/
import proofs.«176657_g2000305897215060_pallasbulk_1035_2_alg».proof.Proof.Gen.KernelIdeal.Skeleton
import proofs.«176657_g2000305897215060_pallasbulk_1035_2_alg».proof.Proof.LibPlainMatmul
import proofs.«176657_g2000305897215060_pallasbulk_1035_2_alg».proof.Proof.Spec
import Idealize.ShloMosaic.Lib.Pipeline.Value
import Idealize.ShloMosaic.Lib.ValueLayout

noncomputable section

namespace Cert.KernelIdeal.KV

open Idealize.ShloMosaic Idealize.ShloMosaic.ValueIdx Cert.KernelIdeal Cert.KernelIdeal.Gen

/-- The first product's dimension numbers are the plain ones, 1024×128 by 128×256. -/
theorem dot1_eq : dot_S1024x128_S128x256_S1024x256_1_0_0_1_n_n = DotDims.plain 1024 128 256 := rfl
/-- The second product's dimension numbers are the plain ones, 1024×256 by 256×256. -/
theorem dot2_eq : dot_S1024x256_S256x256_S1024x256_1_0_0_1_n_n = DotDims.plain 1024 256 256 := rfl

variable (x0 : FVec Ideal S1024x128 .f32) (x1 : FVec Ideal S128x256 .f32) (x2 : FVec Ideal S1x256 .f32)
  (x5 : FVec Ideal S256x256 .f32) (x3 : FVec Ideal S1x256 .f32) (x4 : FVec Ideal S1x256 .f32)

/-- The centred activation of the block: the product with the packed weights plus the packed bias row. -/
def blockD (p : Fin 1024) (q : Fin 256) : EReal :=
  (∑ l : Fin 128, x0 (ix2 p l) * x1 (ix2 l q)) + x2 (ix2 (0 : Fin 1) q)

/-- The product of its squares with the averaging matrix. -/
def blockVar (p : Fin 1024) (q : Fin 256) : EReal :=
  ∑ l : Fin 256, (blockD x0 x1 x2 p l * blockD x0 x1 x2 p l) * x5 (ix2 l q)

/-- The stored value at (p, q). -/
def blockOut (p : Fin 1024) (q : Fin 256) : EReal :=
  max (blockD x0 x1 x2 p q * (Ideal.rsqrt (blockVar x0 x1 x2 x5 p q + Cert.Spec.cEps) * x3 (ix2 (0 : Fin 1) q))
    + x4 (ix2 (0 : Fin 1) q)) 0

/-- The centred activation as the body computes it, as a vector. -/
def dVec : FVec Ideal S1024x256 .f32 :=
  addf (matmul dot_S1024x128_S128x256_S1024x256_1_0_0_1_n_n none
      (shapeCast S1024x128 x0 shapeCasts_S1024x128_S1024x128 : FVec Ideal S1024x128 .f32)
      (shapeCast S128x256 x1 shapeCasts_S128x256_S128x256 : FVec Ideal S128x256 .f32)
      (constant S1024x256 .f32 0x00000000#32))
    (broadcastTo S1024x256 (shapeCast S1x256 x2 shapeCasts_S1x256_S1x256 : FVec Ideal S1x256 .f32) broadcasts_S1x256_S1024x256)

/-- The product of its squares with the averaging matrix, as a vector. -/
def varVec : FVec Ideal S1024x256 .f32 :=
  matmul dot_S1024x256_S256x256_S1024x256_1_0_0_1_n_n none (mulf (dVec x0 x1 x2) (dVec x0 x1 x2))
    (shapeCast S256x256 x5 shapeCasts_S256x256_S256x256 : FVec Ideal S256x256 .f32) (constant S1024x256 .f32 0x00000000#32)

/-- The body's stored value is this tree of operations of the two vectors and the gain and offset rows. -/
theorem pay_eq : k0_pay1 (F := Ideal) x0 x1 x2 x5 x3 x4
    = maximumf (addf (mulf (dVec x0 x1 x2)
          (mulf (rsqrt (addf (varVec x0 x1 x2 x5) (broadcast S1024x256 (Scalar.ofBits (F := Ideal) .f32 0x3727C5AC#32))))
            (broadcastTo S1024x256 (shapeCast S1x256 x3 shapeCasts_S1x256_S1x256 : FVec Ideal S1x256 .f32) broadcasts_S1x256_S1024x256)))
        (broadcastTo S1024x256 (shapeCast S1x256 x4 shapeCasts_S1x256_S1x256 : FVec Ideal S1x256 .f32) broadcasts_S1x256_S1024x256))
      (broadcast S1024x256 (Scalar.ofBits (F := Ideal) .f32 0x00000000#32)) := rfl

/-- A row cast to its own shape and broadcast down the rows reads its one row. -/
theorem row_apply (v : FVec Ideal S1x256 .f32) (h : S1x256.ShapeCasts S1x256) (hb : S1x256.Broadcasts S1024x256)
    (p : Fin 1024) (q : Fin 256) :
    broadcastTo S1024x256 (shapeCast S1x256 v h) hb (ix2 p q) = v (ix2 (0 : Fin 1) q) := by
  rw [shapeCast_self]
  exact broadcastTo_1b_ab_apply v hb p q

/-- The centred activation at (p, q). -/
theorem dVec_apply (p : Fin 1024) (q : Fin 256) : dVec x0 x1 x2 (ix2 p q) = blockD x0 x1 x2 p q := by
  unfold dVec blockD
  rw [addf_apply, row_apply, shapeCast_self, shapeCast_self, dot1_eq]
  exact congrArg (· + x2 (ix2 (0 : Fin 1) q)) (PlainMatmul.plain_matmul_zero_apply 1024 128 256 none x0 x1 p q)

/-- The product of the squares with the averaging matrix at (p, q). -/
theorem varVec_apply (p : Fin 1024) (q : Fin 256) : varVec x0 x1 x2 x5 (ix2 p q) = blockVar x0 x1 x2 x5 p q := by
  unfold varVec blockVar
  rw [shapeCast_self, dot2_eq]
  refine (PlainMatmul.plain_matmul_zero_apply 1024 256 256 none (mulf (dVec x0 x1 x2) (dVec x0 x1 x2)) x5 p q).trans ?_
  refine Finset.sum_congr rfl fun l _ => ?_
  rw [mulf_apply, dVec_apply]

/-- THE BODY'S STORED VALUE at (p, q). -/
theorem pay_apply (p : Fin 1024) (q : Fin 256) :
    k0_pay1 (F := Ideal) x0 x1 x2 x5 x3 x4 (ix2 p q) = blockOut x0 x1 x2 x5 x3 x4 p q := by
  rw [pay_eq]
  unfold blockOut
  rw [maximumf_apply, addf_apply, mulf_apply, mulf_apply, row_apply, row_apply, dVec_apply]
  show max (blockD x0 x1 x2 p q * (Ideal.rsqrt (varVec x0 x1 x2 x5 (ix2 p q) + Ideal.ofBits .f32 0x3727C5AC#32) * x3 (ix2 (0 : Fin 1) q))
      + x4 (ix2 (0 : Fin 1) q)) (Ideal.ofBits .f32 0x00000000#32) = _
  rw [varVec_apply, Ideal.ofBits_zero_f32]

end Cert.KernelIdeal.KV

end
-- ==== Proof.KHeadX.lean ====
/-
  The packed samples and the three packed rows, as the region finds them, entry by entry.

  Before the region the host re-lays the 524288×16 samples as 65536×128: packed row r holds the eight samples
  8r, …, 8r+7 side by side, so entry (r, 16g+a) is entry a of sample 8r+g. It takes the bias's mean off the bias, and it
  lays each of the bias, the gain and the offset (32 numbers) as a row [1, 256] holding eight copies: entry (0, 32g+j) is
  entry j. A reshape reads the entry at the same row-major position; the broadcast [1, 32] to [8, 32] reads the one row;
  the host's sum of a vector from the zero initial value is the sum of its entries.
-/
import proofs.«176657_g2000305897215060_pallasbulk_1035_2_alg».proof.Proof.Gen.KernelIdeal.Frame
import proofs.«176657_g2000305897215060_pallasbulk_1035_2_alg».proof.Proof.Spec
import Idealize.ShloMosaic.Lib.Pipeline.Value
import Idealize.ShloMosaic.Lib.ValueLayout
import Idealize.ShloMosaic.Lib.IdealHost

noncomputable section

namespace Cert.KernelIdeal.KV

open Idealize.ShloMosaic Idealize.ShloMosaic.ValueIdx Idealize.ShloMosaic.TcCoe Cert.KernelIdeal Cert.KernelIdeal.Gen

/-! ## The operations, named -/

/-- A vector of 32 numbers with its mean taken off, as the host computes it. -/
def centred (b : FVec Ideal S32 .f32) : FVec Ideal S32 .f32 :=
  subf b (broadcastInDim S32 ![] bcast_S_S32
    (Host.divf (F := Ideal) (Host.reduceAdd (F := Ideal) b (constant (F := Ideal) S_ .f32 0x00000000#32) reducesTo_S32_S_d0 h_S_)
      (constant (F := Ideal) S_ .f32 0x42000000#32)))

/-- A vector of 32 numbers laid as a row of eight copies. -/
def packedRow (v : FVec Ideal S32 .f32) : FVec Ideal S1x256 .f32 :=
  shapeCast S1x256 (shapeCast S256 (broadcastInDim S8x32 ![0, 1] bcast_S1x32_S8x32_0_1
    (shapeCast S1x32 v shapeCasts_S32_S1x32 : FVec Ideal S1x32 .f32) : FVec Ideal S8x32 .f32) shapeCasts_S8x32_S256 : FVec Ideal S256 .f32)
    shapeCasts_S256_S1x256

/-! ## Read at an entry -/

/-- Position 32g + j of a row of 256. -/
abbrev lane (g : Fin 8) (j : Fin 32) : Fin 256 := ⟨32 * g.val + j.val, by omega⟩
/-- Position 16g + a of a row of 128. -/
abbrev slot (g : Fin 8) (a : Fin 16) : Fin 128 := ⟨16 * g.val + a.val, by omega⟩
/-- Sample 8r + g. -/
abbrev sample (r : Fin 65536) (g : Fin 8) : Fin 524288 := ⟨8 * r.val + g.val, by omega⟩

/-- The row of eight copies at position 32g + j is entry j. -/
theorem packedRow_apply (v : FVec Ideal S32 .f32) (g : Fin 8) (j : Fin 32) :
    packedRow v (ix2 (0 : Fin 1) (lane g j)) = v (ix1 j) := by
  unfold packedRow
  refine (shapeCast_apply _ shapeCasts_S256_S1x256 (ix2 (0 : Fin 1) (lane g j)) (ix1 (lane g j)) (by
    rw [Shape.rowMajor_val_two, Shape.rowMajor_val_one]
    show 32 * g.val + j.val = 0 * 256 + (32 * g.val + j.val)
    omega)).trans ?_
  refine (shapeCast_apply _ shapeCasts_S8x32_S256 (ix1 (lane g j)) (ix2 g j) (by
    rw [Shape.rowMajor_val_two, Shape.rowMajor_val_one]
    show g.val * 32 + j.val = 32 * g.val + j.val
    omega)).trans ?_
  refine (broadcastInDim_apply _ bcast_S1x32_S8x32_0_1 _ (ix2 g j) (ix2 (0 : Fin 1) j) (fun ax => by
    match ax with
    | ⟨0, _⟩ => rfl
    | ⟨1, _⟩ => rfl)).trans ?_
  exact shapeCast_a_1a_apply v shapeCasts_S32_S1x32 (0 : Fin 1) j

/-- A sum over the indices of a vector is the sum over its positions. -/
theorem sum_idx1 {n : ℕ} (f : (⟨1, ![n]⟩ : Shape).Idx → EReal) : ∑ i, f i = ∑ k : Fin n, f (ix1 k) :=
  Fintype.sum_equiv ⟨fun i => i 0, ix1, fun i => (eq_ix1 i).symm, fun _ => rfl⟩ _ _ (fun i => congrArg f (eq_ix1 i))

/-- The host's sum of a vector of 32 numbers from the zero initial value is the sum of its entries. -/
theorem sum32 (b : FVec Ideal S32 .f32) :
    Host.reduceAdd (F := Ideal) b (constant (F := Ideal) S_ .f32 0x00000000#32) reducesTo_S32_S_d0 h_S_ ix0
      = ∑ j' : Fin 32, b (ix1 j') := by
  rw [hostReduceAdd_apply]
  refine (Ideal.hostReduceAdd_total reducesTo_S32_S_d0 (fun b => b.elim0) b _ ix0).trans ?_
  rw [constant_apply, Ideal.ofBits_zero_f32, zero_add]
  exact sum_idx1 b

/-- The vector with its mean taken off, at entry j. -/
theorem centred_apply (b : FVec Ideal S32 .f32) (j : Fin 32) :
    centred b (ix1 j) = Cert.Spec.bc (fun j => b (ix1 j)) j := by
  unfold centred Cert.Spec.bc
  rw [subf_apply, broadcastInDim_scalar_apply, hostDivf_apply, sum32, constant_apply]

variable (m : (ℓ : Loc nD τ sig) → Buf (Elt Ideal) ℓ)

/-! ## The arrays as the region finds them -/

theorem V_v31 (c : Dev nD) : (V m c main_call0_v31 : S65536x128.Idx → EReal)
    = shapeCast S65536x128 (m ((c : Thread nD τ).loc main_arg0) : S524288x16.Idx → EReal) shapeCasts_S524288x16_S65536x128 := by
  show StableHlo.after hostOps0 (fun b => m (c, b)) (Proc.devRef .tc main_call0_v31) = _
  after_results; rfl

theorem V_v22 (c : Dev nD) : (V m c main_call0_v22 : S1x256.Idx → EReal)
    = packedRow (centred (m ((c : Thread nD τ).loc main_arg2))) := by
  show StableHlo.after hostOps0 (fun b => m (c, b)) (Proc.devRef .tc main_call0_v22) = _
  after_results; rfl

theorem V_v26 (c : Dev nD) : (V m c main_call0_v26 : S1x256.Idx → EReal)
    = packedRow (m ((c : Thread nD τ).loc main_arg3)) := by
  show StableHlo.after hostOps0 (fun b => m (c, b)) (Proc.devRef .tc main_call0_v26) = _
  after_results; rfl

theorem V_v30 (c : Dev nD) : (V m c main_call0_v30 : S1x256.Idx → EReal)
    = packedRow (m ((c : Thread nD τ).loc main_arg4)) := by
  show StableHlo.after hostOps0 (fun b => m (c, b)) (Proc.devRef .tc main_call0_v30) = _
  after_results; rfl

/-- The packed samples at (r, 16g + a): entry a of sample 8r + g. -/
theorem x_apply (c : Dev nD) (r : Fin 65536) (g : Fin 8) (a : Fin 16) :
    (V m c main_call0_v31 : S65536x128.Idx → EReal) (ix2 r (slot g a))
      = (m ((c : Thread nD τ).loc main_arg0) : S524288x16.Idx → EReal) (ix2 (sample r g) a) := by
  rw [V_v31]
  exact shapeCast_apply _ shapeCasts_S524288x16_S65536x128 (ix2 r (slot g a)) (ix2 (sample r g) a) (by
    rw [Shape.rowMajor_val_two, Shape.rowMajor_val_two]
    show (8 * r.val + g.val) * 16 + a.val = r.val * 128 + (16 * g.val + a.val)
    omega)

end Cert.KernelIdeal.KV

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.KHeadW.lean ====
/-
  The packed weights and the averaging matrix, as the region finds them, entry by entry.

  Before the region the host takes each weight row's mean over the 32 hidden units off the row, builds the 8×8 pattern
  that is one on the diagonal and zero elsewhere (two coordinate arrays compared for equality, the bit read as a number),
  and lays eight copies of the centred 16×32 weights, and eight copies of the 32×32 matrix whose every entry is the word
  of 1/32, along the diagonal of a 128×256 and a 256×256 matrix: entry (16g' + a, 32g + j) is the pattern's entry
  (g', g) times the centred weight (a, j), and entry (32g' + j', 32g + j) is the pattern's entry (g', g) times 1/32.
-/
import proofs.«176657_g2000305897215060_pallasbulk_1035_2_alg».proof.Proof.KHeadX
import proofs.«176657_g2000305897215060_pallasbulk_1035_2_alg».proof.Proof.LibColumnLayout

noncomputable section

namespace Cert.KernelIdeal.KV

open Idealize.ShloMosaic Idealize.ShloMosaic.ValueIdx Idealize.ShloMosaic.TcCoe Cert.KernelIdeal Cert.KernelIdeal.Gen

/-! ## The 8×8 pattern -/

/-- One on the diagonal, zero elsewhere, as the host computes it. -/
def eyeVec : FVec Ideal S8x8 .f32 :=
  uitofp (F := Ideal) .f32 (cmpi .eq (addi (iotaInDim S8x8 32 0) (broadcastInDim S8x8 ![] bcast_S_S8x8 (constantI S_ 32 0#32)))
    (iotaInDim S8x8 32 1))

/-- The pattern as a number. -/
def eye (g' g : Fin 8) : EReal := if g' = g then 1 else 0

/-- The compared coordinates, as words: equal exactly on the diagonal. -/
theorem eye_bits : ∀ a b : Fin 8,
    IntOp.cmpi .eq (IntOp.addi (BitVec.ofNat 32 a.val) 0#32) (BitVec.ofNat 32 b.val) = if a = b then 1#1 else 0#1 := by
  decide

theorem eyeVec_apply (g' g : Fin 8) : eyeVec (ix2 g' g) = eye g' g := by
  show FloatOps.uitofp (F := Ideal) .f32 (IntOp.cmpi .eq (IntOp.addi (BitVec.ofNat 32 g'.val) (0#32)) (BitVec.ofNat 32 g.val)) = _
  rw [eye_bits]
  unfold eye
  by_cases h : g' = g
  · rw [if_pos h, if_pos h]
    show (((1 : ℕ) : ℝ) : EReal) = 1
    simp
  · rw [if_neg h, if_neg h]
    show (((0 : ℕ) : ℝ) : EReal) = 0
    simp

/-! ## The centred weights -/

/-- The weights with each row's mean over the hidden units taken off, as the host computes it. -/
def wcVec (w : FVec Ideal S16x32 .f32) : FVec Ideal S16x32 .f32 :=
  subf w (broadcastInDim S16x32 ![0, 1] bcast_S16x1_S16x32_0_1
    (Host.divf (F := Ideal)
      (broadcastInDim S16x1 ![0] bcast_S16_S16x1_0
        (Host.reduceAdd (F := Ideal) w (constant (F := Ideal) S_ .f32 0x00000000#32) reducesTo_S16x32_S16_d1 h_S_ : FVec Ideal S16 .f32)
        : FVec Ideal S16x1 .f32)
      (broadcastInDim S16x1 ![] bcast_S_S16x1 (constant (F := Ideal) S_ .f32 0x42000000#32) : FVec Ideal S16x1 .f32)
      : FVec Ideal S16x1 .f32))

theorem wcVec_apply (w : FVec Ideal S16x32 .f32) (a : Fin 16) (j : Fin 32) :
    wcVec w (ix2 a j) = Cert.Spec.wc (fun a j => w (ix2 a j)) a j := by
  unfold wcVec Cert.Spec.wc
  rw [subf_apply]
  refine congrArg (w (ix2 a j) - ·) ?_
  refine (broadcastInDim_apply _ bcast_S16x1_S16x32_0_1 _ (ix2 a j) (ix2 a (0 : Fin 1)) (fun ax => by
    match ax with
    | ⟨0, _⟩ => rfl
    | ⟨1, _⟩ => rfl)).trans ?_
  rw [hostDivf_apply, LibColumnLayout.broadcastInDim_a_a1_apply, broadcastInDim_scalar_apply, constant_apply, hostReduceAdd_apply,
    LibColumnLayout.hostReduceAdd_rows_apply reducesTo_S16x32_S16_d1 (by decide), constant_apply, Ideal.ofBits_zero_f32, zero_add]

/-! ## Eight copies along the diagonal -/

/-- The block-diagonal matrix of eight copies of a 16×32 matrix: the 8×8 pattern and the matrix, each spread over the four
    axes [8, 16, 8, 32], multiplied, and the four axes read as [128, 256]. -/
def kronW (e : FVec Ideal S8x8 .f32) (A : FVec Ideal S16x32 .f32) : FVec Ideal S128x256 .f32 :=
  shapeCast S128x256 (mulf
    (broadcastInDim S8x16x8x32 ![0, 1, 2, 3] bcast_S8x1x8x1_S8x16x8x32_0_1_2_3
      (broadcastInDim S8x1x8x1 ![0, 2] bcast_S8x8_S8x1x8x1_0_2 e : FVec Ideal S8x1x8x1 .f32) : FVec Ideal S8x16x8x32 .f32)
    (broadcastInDim S8x16x8x32 ![0, 1, 2, 3] bcast_S1x16x1x32_S8x16x8x32_0_1_2_3
      (broadcastInDim S1x16x1x32 ![1, 3] bcast_S16x32_S1x16x1x32_1_3 A : FVec Ideal S1x16x1x32 .f32) : FVec Ideal S8x16x8x32 .f32)) shapeCasts_S8x16x8x32_S128x256

/-- Its entry (16g' + a, 32g + j) is the pattern's entry (g', g) times the matrix's entry (a, j). -/
theorem kronW_apply (e : FVec Ideal S8x8 .f32) (A : FVec Ideal S16x32 .f32) (g' : Fin 8) (a : Fin 16) (g : Fin 8) (j : Fin 32) :
    kronW e A (ix2 (slot g' a) (lane g j)) = e (ix2 g' g) * A (ix2 a j) := by
  unfold kronW
  refine (shapeCast_apply _ shapeCasts_S8x16x8x32_S128x256 (ix2 (slot g' a) (lane g j)) (ix4 g' a g j) (by
    rw [Shape.rowMajor_val_four, Shape.rowMajor_val_two]
    show ((g'.val * 16 + a.val) * 8 + g.val) * 32 + j.val = (16 * g'.val + a.val) * 256 + (32 * g.val + j.val)
    omega)).trans ?_
  rw [mulf_apply]
  refine congrArg₂ (· * ·) ?_ ?_
  · refine (broadcastInDim_apply _ bcast_S8x1x8x1_S8x16x8x32_0_1_2_3 _ (ix4 g' a g j) (ix4 g' (0 : Fin 1) g (0 : Fin 1)) (fun ax => by
      match ax with
      | ⟨0, _⟩ => rfl
      | ⟨1, _⟩ => rfl
      | ⟨2, _⟩ => rfl
      | ⟨3, _⟩ => rfl)).trans ?_
    exact broadcastInDim_apply _ bcast_S8x8_S8x1x8x1_0_2 e (ix4 g' (0 : Fin 1) g (0 : Fin 1)) (ix2 g' g) (fun ax => by
      match ax with
      | ⟨0, _⟩ => rfl
      | ⟨1, _⟩ => rfl)
  · refine (broadcastInDim_apply _ bcast_S1x16x1x32_S8x16x8x32_0_1_2_3 _ (ix4 g' a g j) (ix4 (0 : Fin 1) a (0 : Fin 1) j) (fun ax => by
      match ax with
      | ⟨0, _⟩ => rfl
      | ⟨1, _⟩ => rfl
      | ⟨2, _⟩ => rfl
      | ⟨3, _⟩ => rfl)).trans ?_
    exact broadcastInDim_apply _ bcast_S16x32_S1x16x1x32_1_3 A (ix4 (0 : Fin 1) a (0 : Fin 1) j) (ix2 a j) (fun ax => by
      match ax with
      | ⟨0, _⟩ => rfl
      | ⟨1, _⟩ => rfl)

/-- The block-diagonal matrix of eight copies of a 32×32 matrix: the 8×8 pattern and the matrix, each spread over the four
    axes [8, 32, 8, 32], multiplied, and the four axes read as [256, 256]. -/
def kronG (e : FVec Ideal S8x8 .f32) (A : FVec Ideal S32x32 .f32) : FVec Ideal S256x256 .f32 :=
  shapeCast S256x256 (mulf
    (broadcastInDim S8x32x8x32 ![0, 1, 2, 3] bcast_S8x1x8x1_S8x32x8x32_0_1_2_3
      (broadcastInDim S8x1x8x1 ![0, 2] bcast_S8x8_S8x1x8x1_0_2 e : FVec Ideal S8x1x8x1 .f32) : FVec Ideal S8x32x8x32 .f32)
    (broadcastInDim S8x32x8x32 ![0, 1, 2, 3] bcast_S1x32x1x32_S8x32x8x32_0_1_2_3
      (broadcastInDim S1x32x1x32 ![1, 3] bcast_S32x32_S1x32x1x32_1_3 A : FVec Ideal S1x32x1x32 .f32) : FVec Ideal S8x32x8x32 .f32)) shapeCasts_S8x32x8x32_S256x256

/-- Its entry (32g' + a, 32g + j) is the pattern's entry (g', g) times the matrix's entry (a, j). -/
theorem kronG_apply (e : FVec Ideal S8x8 .f32) (A : FVec Ideal S32x32 .f32) (g' : Fin 8) (a : Fin 32) (g : Fin 8) (j : Fin 32) :
    kronG e A (ix2 (lane g' a) (lane g j)) = e (ix2 g' g) * A (ix2 a j) := by
  unfold kronG
  refine (shapeCast_apply _ shapeCasts_S8x32x8x32_S256x256 (ix2 (lane g' a) (lane g j)) (ix4 g' a g j) (by
    rw [Shape.rowMajor_val_four, Shape.rowMajor_val_two]
    show ((g'.val * 32 + a.val) * 8 + g.val) * 32 + j.val = (32 * g'.val + a.val) * 256 + (32 * g.val + j.val)
    omega)).trans ?_
  rw [mulf_apply]
  refine congrArg₂ (· * ·) ?_ ?_
  · refine (broadcastInDim_apply _ bcast_S8x1x8x1_S8x32x8x32_0_1_2_3 _ (ix4 g' a g j) (ix4 g' (0 : Fin 1) g (0 : Fin 1)) (fun ax => by
      match ax with
      | ⟨0, _⟩ => rfl
      | ⟨1, _⟩ => rfl
      | ⟨2, _⟩ => rfl
      | ⟨3, _⟩ => rfl)).trans ?_
    exact broadcastInDim_apply _ bcast_S8x8_S8x1x8x1_0_2 e (ix4 g' (0 : Fin 1) g (0 : Fin 1)) (ix2 g' g) (fun ax => by
      match ax with
      | ⟨0, _⟩ => rfl
      | ⟨1, _⟩ => rfl)
  · refine (broadcastInDim_apply _ bcast_S1x32x1x32_S8x32x8x32_0_1_2_3 _ (ix4 g' a g j) (ix4 (0 : Fin 1) a (0 : Fin 1) j) (fun ax => by
      match ax with
      | ⟨0, _⟩ => rfl
      | ⟨1, _⟩ => rfl
      | ⟨2, _⟩ => rfl
      | ⟨3, _⟩ => rfl)).trans ?_
    exact broadcastInDim_apply _ bcast_S32x32_S1x32x1x32_1_3 A (ix4 (0 : Fin 1) a (0 : Fin 1) j) (ix2 a j) (fun ax => by
      match ax with
      | ⟨0, _⟩ => rfl
      | ⟨1, _⟩ => rfl)

/-- The 32×32 matrix whose every entry is the word of 1/32. -/
def invVec : FVec Ideal S32x32 .f32 := broadcastInDim S32x32 ![] bcast_S_S32x32 (constant (F := Ideal) S_ .f32 0x3D000000#32)

theorem invVec_apply (i : S32x32.Idx) : invVec i = Cert.Spec.cInv32 := by
  unfold invVec
  rw [broadcastInDim_scalar_apply, constant_apply]

variable (m : (ℓ : Loc nD τ sig) → Buf (Elt Ideal) ℓ)

/-! ## The arrays as the region finds them -/

theorem V_v16 (c : Dev nD) : (V m c main_call0_v16 : S128x256.Idx → EReal)
    = kronW eyeVec (wcVec (m ((c : Thread nD τ).loc main_arg1))) := by
  show StableHlo.after hostOps0 (fun b => m (c, b)) (Proc.devRef .tc main_call0_v16) = _
  after_results; rfl

theorem V_v18 (c : Dev nD) : (V m c main_call0_v18 : S256x256.Idx → EReal) = kronG eyeVec invVec := by
  show StableHlo.after hostOps0 (fun b => m (c, b)) (Proc.devRef .tc main_call0_v18) = _
  after_results; rfl

/-- The packed weights at (16g' + a, 32g + j): the centred weight (a, j) on the diagonal blocks, zero times it elsewhere. -/
theorem w_apply (c : Dev nD) (g' : Fin 8) (a : Fin 16) (g : Fin 8) (j : Fin 32) :
    (V m c main_call0_v16 : S128x256.Idx → EReal) (ix2 (slot g' a) (lane g j))
      = eye g' g * Cert.Spec.wc (fun a j => (m ((c : Thread nD τ).loc main_arg1) : S16x32.Idx → EReal) (ix2 a j)) a j := by
  rw [V_v16, kronW_apply, eyeVec_apply, wcVec_apply]

/-- The averaging matrix at (32g' + j', 32g + j): 1/32 on the diagonal blocks, zero times it elsewhere. -/
theorem gmat_apply (c : Dev nD) (g' : Fin 8) (j' : Fin 32) (g : Fin 8) (j : Fin 32) :
    (V m c main_call0_v18 : S256x256.Idx → EReal) (ix2 (lane g' j') (lane g j)) = eye g' g * Cert.Spec.cInv32 := by
  rw [V_v18, kronG_apply, eyeVec_apply, invVec_apply]

end Cert.KernelIdeal.KV

end
-- ==== Proof.LibSumChunks.lean ====
/-
  Sums over a range of length n * m taken chunk by chunk.

  In any commutative additive monoid, a sum over `Fin N` with `N = n * m` is the sum over the `n` consecutive
  chunks of length `m`: position `m * c + k` is entry `k` of chunk `c`. This is the re-association that turns
  a contraction computed as a few partial contractions over consecutive slices of the contracted axis, added up
  in order, into the one contraction over the whole axis. Only associativity and commutativity of `+` are used,
  so it holds in the extended reals with no finiteness assumption.
-/
import Mathlib.Algebra.BigOperators.Fin
import Mathlib.Logic.Equiv.Fin.Basic

namespace LibSumChunks

open Finset

/-- Entry `k` of chunk `c` sits at position `m * c + k`, inside the range. -/
theorem chunk_lt {N n m : ℕ} (h : N = n * m) (c : Fin n) (k : Fin m) : m * c.val + k.val < N := by
  subst h
  calc m * c.val + k.val < m * c.val + m := Nat.add_lt_add_left k.isLt _
    _ = m * (c.val + 1) := (Nat.mul_succ m c.val).symm
    _ ≤ m * n := Nat.mul_le_mul_left m c.isLt
    _ = n * m := Nat.mul_comm m n

/-- A sum over `Fin N`, `N = n * m`, is the sum over the `n` chunks of the sums over each chunk's `m` entries. -/
theorem sum_chunks {M : Type*} [AddCommMonoid M] {N : ℕ} (n m : ℕ) (h : N = n * m) (f : Fin N → M) :
    ∑ i : Fin N, f i = ∑ c : Fin n, ∑ k : Fin m, f ⟨m * c.val + k.val, chunk_lt h c k⟩ := by
  subst h
  rw [← (finProdFinEquiv (m := n) (n := m)).sum_comp, Fintype.sum_prod_type]
  refine Finset.sum_congr rfl fun c _ => Finset.sum_congr rfl fun k _ => congrArg f (Fin.ext ?_)
  show (k.val + m * c.val : ℕ) = m * c.val + k.val
  exact Nat.add_comm _ _

/-- Four chunks, written out in the order a left-to-right accumulation adds them, starting from zero. -/
theorem sum_four_chunks {M : Type*} [AddCommMonoid M] {N : ℕ} (m : ℕ) (h : N = 4 * m) (f : Fin N → M) :
    ∑ i : Fin N, f i
      = (((0 + ∑ k : Fin m, f ⟨m * 0 + k.val, chunk_lt h 0 k⟩) + ∑ k : Fin m, f ⟨m * 1 + k.val, chunk_lt h 1 k⟩)
          + ∑ k : Fin m, f ⟨m * 2 + k.val, chunk_lt h 2 k⟩) + ∑ k : Fin m, f ⟨m * 3 + k.val, chunk_lt h 3 k⟩ := by
  rw [sum_chunks 4 m h f, Fin.sum_univ_four, zero_add]
  rfl

end LibSumChunks
-- ==== Proof.KCollapse.lean ====
/-
  The block-diagonal sums collapse: the body's stored value is the specification's.

  Packed row p holds eight samples; lane 32g + j of the result belongs to the g-th of them and hidden unit j. The packed
  weights and the averaging matrix are block diagonal — entry (16g' + a, 32g + j), resp. (32g' + j', 32g + j), carries
  the factor that is one for g' = g and zero otherwise — so each contraction over the packed axis, taken block by block,
  keeps the one block g' = g: the others are sums of zeros (0 * anything = 0 on the extended reals). What is left is the
  sample's own contraction over its 16 inputs, resp. the average over its 32 hidden units.
-/
import proofs.«176657_g2000305897215060_pallasbulk_1035_2_alg».proof.Proof.KBody
import proofs.«176657_g2000305897215060_pallasbulk_1035_2_alg».proof.Proof.KHeadW
import proofs.«176657_g2000305897215060_pallasbulk_1035_2_alg».proof.Proof.LibSumChunks

noncomputable section

namespace Cert.KernelIdeal.KV

open Idealize.ShloMosaic Idealize.ShloMosaic.ValueIdx Cert.KernelIdeal Cert.KernelIdeal.Gen

/-- A sum over eight blocks whose block g' carries the factor that is one for g' = g and zero otherwise is its block g. -/
theorem sum_blocks_eye {n : ℕ} (g : Fin 8) (F : Fin 8 → Fin n → EReal) (G : Fin n → EReal)
    (hne : ∀ g' k, g' ≠ g → F g' k = 0) (heq : ∀ k, F g k = G k) :
    ∑ g' : Fin 8, ∑ k : Fin n, F g' k = ∑ k : Fin n, G k := by
  rw [Finset.sum_eq_single g (fun g' _ h => Finset.sum_eq_zero fun k _ => hne g' k h) (fun h => absurd (Finset.mem_univ g) h)]
  exact Finset.sum_congr rfl fun k _ => heq k

theorem eye_self (g : Fin 8) : eye g g = 1 := if_pos rfl
theorem eye_ne {g' g : Fin 8} (h : g' ≠ g) : eye g' g = 0 := if_neg h

variable (x0 : FVec Ideal S1024x128 .f32) (x1 : FVec Ideal S128x256 .f32) (x2 : FVec Ideal S1x256 .f32)
  (x5 : FVec Ideal S256x256 .f32) (x3 : FVec Ideal S1x256 .f32) (x4 : FVec Ideal S1x256 .f32)
  (x : Fin 524288 → Fin 16 → EReal) (w : Fin 16 → Fin 32 → EReal) (b γ β : Fin 32 → EReal)
  (p : Fin 1024) (s : Fin 8 → Fin 524288)

/-- The centred activation at lane 32g + j of packed row p is the g-th sample's at hidden unit j. -/
theorem blockD_lane (hx : ∀ g' a, x0 (ix2 p (slot g' a)) = x (s g') a)
    (hw : ∀ g' a g j, x1 (ix2 (slot g' a) (lane g j)) = eye g' g * Cert.Spec.wc w a j)
    (hb : ∀ g j, x2 (ix2 (0 : Fin 1) (lane g j)) = Cert.Spec.bc b j) (g : Fin 8) (j : Fin 32) :
    blockD x0 x1 x2 p (lane g j) = Cert.Spec.dK x w b (s g) j := by
  unfold blockD Cert.Spec.dK
  rw [hb, LibSumChunks.sum_chunks 8 16 (by norm_num) fun l : Fin 128 => x0 (ix2 p l) * x1 (ix2 l (lane g j))]
  refine congrArg (· + Cert.Spec.bc b j) ?_
  refine sum_blocks_eye g (fun g' k => x0 (ix2 p (slot g' k)) * x1 (ix2 (slot g' k) (lane g j))) _ (fun g' k h => ?_) (fun k => ?_)
  · show x0 (ix2 p (slot g' k)) * x1 (ix2 (slot g' k) (lane g j)) = 0
    rw [hw, eye_ne h, zero_mul, mul_zero]
  · show x0 (ix2 p (slot g k)) * x1 (ix2 (slot g k) (lane g j)) = x (s g) k * Cert.Spec.wc w k j
    rw [hx, hw, eye_self, one_mul]

/-- The averaged squares at lane 32g + j of packed row p are the g-th sample's variance. -/
theorem blockVar_lane (hx : ∀ g' a, x0 (ix2 p (slot g' a)) = x (s g') a)
    (hw : ∀ g' a g j, x1 (ix2 (slot g' a) (lane g j)) = eye g' g * Cert.Spec.wc w a j)
    (hb : ∀ g j, x2 (ix2 (0 : Fin 1) (lane g j)) = Cert.Spec.bc b j)
    (hm : ∀ g' j' g j, x5 (ix2 (lane g' j') (lane g j)) = eye g' g * Cert.Spec.cInv32) (g : Fin 8) (j : Fin 32) :
    blockVar x0 x1 x2 x5 p (lane g j) = Cert.Spec.varK x w b (s g) := by
  unfold blockVar Cert.Spec.varK
  rw [LibSumChunks.sum_chunks 8 32 (by norm_num) fun l : Fin 256 => (blockD x0 x1 x2 p l * blockD x0 x1 x2 p l) * x5 (ix2 l (lane g j))]
  refine sum_blocks_eye g (fun g' k => (blockD x0 x1 x2 p (lane g' k) * blockD x0 x1 x2 p (lane g' k)) * x5 (ix2 (lane g' k) (lane g j))) _
    (fun g' k h => ?_) (fun k => ?_)
  · show (blockD x0 x1 x2 p (lane g' k) * blockD x0 x1 x2 p (lane g' k)) * x5 (ix2 (lane g' k) (lane g j)) = 0
    rw [hm, eye_ne h, zero_mul, mul_zero]
  · show (blockD x0 x1 x2 p (lane g k) * blockD x0 x1 x2 p (lane g k)) * x5 (ix2 (lane g k) (lane g j))
      = (Cert.Spec.dK x w b (s g) k * Cert.Spec.dK x w b (s g) k) * Cert.Spec.cInv32
    rw [hm, eye_self, one_mul, blockD_lane x0 x1 x2 x w b p s hx hw hb g k]

/-- THE STORED VALUE at lane 32g + j of packed row p is the specification's result for the g-th sample at hidden unit j. -/
theorem blockOut_lane (hx : ∀ g' a, x0 (ix2 p (slot g' a)) = x (s g') a)
    (hw : ∀ g' a g j, x1 (ix2 (slot g' a) (lane g j)) = eye g' g * Cert.Spec.wc w a j)
    (hb : ∀ g j, x2 (ix2 (0 : Fin 1) (lane g j)) = Cert.Spec.bc b j)
    (hm : ∀ g' j' g j, x5 (ix2 (lane g' j') (lane g j)) = eye g' g * Cert.Spec.cInv32)
    (hg : ∀ g j, x3 (ix2 (0 : Fin 1) (lane g j)) = γ j) (hbe : ∀ g j, x4 (ix2 (0 : Fin 1) (lane g j)) = β j)
    (g : Fin 8) (j : Fin 32) :
    blockOut x0 x1 x2 x5 x3 x4 p (lane g j) = Cert.Spec.outK x w b γ β (s g) j := by
  unfold blockOut Cert.Spec.outK
  rw [hg, hbe, blockD_lane x0 x1 x2 x w b p s hx hw hb g j, blockVar_lane x0 x1 x2 x5 x w b p s hx hw hb hm g j]

end Cert.KernelIdeal.KV

end
-- ==== Proof.KArray.lean ====
/-
  From the blocks to the array: what the region leaves in its output array.

  Grid point t works on packed rows 1024t, …, 1024t + 1023: it reads that block of the packed samples and the whole of
  the five other operands, and writes back that block of the output. By the body's value at an entry, the operands' entries
  in terms of the argument arrays and the collapse of the block-diagonal sums, the block it writes back is the block of ONE
  function of the packed index: entry (r, 32g + j) is the specification's result for sample 8r + g at hidden unit j. The
  64 blocks cover the 65536 rows (row r is in block r / 1024), so the array ends holding that function.
-/
import proofs.«176657_g2000305897215060_pallasbulk_1035_2_alg».proof.Proof.KCollapse
import Idealize.ShloMosaic.Lib.Pipeline.Value

set_option maxRecDepth 16384

noncomputable section

namespace Cert.KernelIdeal.KV

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-! ## The argument arrays, by coordinates -/

/-- The samples. -/
def argX (c : Dev nD) : Fin 524288 → Fin 16 → EReal :=
  fun s a => (m ((c.tc : Thread nD τ).loc main_arg0) : S524288x16.Idx → EReal) (ValueIdx.ix2 s a)
/-- The weights. -/
def argW (c : Dev nD) : Fin 16 → Fin 32 → EReal :=
  fun a j => (m ((c.tc : Thread nD τ).loc main_arg1) : S16x32.Idx → EReal) (ValueIdx.ix2 a j)
/-- The bias. -/
def argB (c : Dev nD) : Fin 32 → EReal :=
  fun j => (m ((c.tc : Thread nD τ).loc main_arg2) : S32.Idx → EReal) (ValueIdx.ix1 j)
/-- The gain. -/
def argG (c : Dev nD) : Fin 32 → EReal :=
  fun j => (m ((c.tc : Thread nD τ).loc main_arg3) : S32.Idx → EReal) (ValueIdx.ix1 j)
/-- The offset. -/
def argBt (c : Dev nD) : Fin 32 → EReal :=
  fun j => (m ((c.tc : Thread nD τ).loc main_arg4) : S32.Idx → EReal) (ValueIdx.ix1 j)

/-- THE PACKED RESULT: entry (r, q) is the specification's result for sample 8r + q / 32 at hidden unit q % 32. -/
def packedOut (c : Dev nD) : S65536x256.Idx → EReal := fun i =>
  Cert.Spec.outK (argX m c) (argW m c) (argB m c) (argG m c) (argBt m c)
    ⟨8 * (i 0).val + (i 1).val / 32, by have h0 := idx2_lt0 i; have h1 := idx2_lt1 i; omega⟩
    ⟨(i 1).val % 32, Nat.mod_lt _ (by norm_num)⟩

/-- At entry (r, 32g + j) that is sample 8r + g, hidden unit j. -/
theorem packedOut_lane (c : Dev nD) (r : Fin 65536) (g : Fin 8) (j : Fin 32) :
    packedOut m c (ix2 r (lane g j)) = Cert.Spec.outK (argX m c) (argW m c) (argB m c) (argG m c) (argBt m c) (sample r g) j := by
  unfold packedOut
  have e1 : (⟨8 * ((ix2 r (lane g j) : S65536x256.Idx) 0).val + ((ix2 r (lane g j) : S65536x256.Idx) 1).val / 32,
      by have h0 := idx2_lt0 (ix2 r (lane g j) : S65536x256.Idx); have h1 := idx2_lt1 (ix2 r (lane g j) : S65536x256.Idx); omega⟩ : Fin 524288)
      = sample r g := Fin.ext (by
    show 8 * r.val + (32 * g.val + j.val) / 32 = 8 * r.val + g.val
    have := j.isLt; omega)
  have e2 : (⟨((ix2 r (lane g j) : S65536x256.Idx) 1).val % 32, Nat.mod_lt _ (by norm_num)⟩ : Fin 32) = j := Fin.ext (by
    show (32 * g.val + j.val) % 32 = j.val
    have := j.isLt; omega)
  rw [e1, e2]

/-- Every lane is 32g + j for its block g and position j. -/
theorem lane_split (q : Fin 256) : ∃ (g : Fin 8) (j : Fin 32), q = lane g j :=
  ⟨⟨q.val / 32, by have := q.isLt; omega⟩, ⟨q.val % 32, Nat.mod_lt _ (by norm_num)⟩, Fin.ext (by
    show q.val = 32 * (q.val / 32) + q.val % 32
    omega)⟩

/-! ## The windows' blocks at a point -/

theorem hz : (![0, 0] : Fin 2 → Nat) = fun _ => 0 := funext fun a => by fin_cases a <;> rfl

/-- The printed index maps, decided over the grid: the samples' and the output's block index is the point on the row axis,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Packed row 1024t + p. -/
abbrev rowAt (t : Fin cfg0.N) (p : Fin 1024) : Fin 65536 :=
  ⟨1024 * t.val + p.val, by have hN : cfg0.N = 64 := N_0; have := t.isLt; omega⟩

/-- The samples' block at point t, row p: packed row 1024t + p. -/
theorem iblk0_apply (c : Dev nD) (t : Fin cfg0.N) (p : Fin 1024) (k : Fin 128) :
    (iblk m c 0 t : S1024x128.Idx → EReal) (ix2 p k) = (V m c main_call0_v31 : S65536x128.Idx → EReal) (ix2 (rowAt t p) k) := by
  obtain ⟨e0, e1, -⟩ := idx_facts t
  show (V m c main_call0_v31 : S65536x128.Idx → EReal) (((cfg0.win 0).blk t).view.emb (ix2 p k)) = _
  refine congrArg _ (funext fun a => Fin.ext ?_)
  match a with
  | ⟨0, _⟩ => show win0_0.index t (0 : Fin 2) * 1024 + 1 * p.val = 1024 * t.val + p.val; omega
  | ⟨1, _⟩ => show win0_0.index t (1 : Fin 2) * 128 + 1 * k.val = k.val; omega

/-- The packed weights' block at any point is the whole array. -/
theorem iblk1_apply (c : Dev nD) (t : Fin cfg0.N) (k : Fin 128) (q : Fin 256) :
    (iblk m c 1 t : S128x256.Idx → EReal) (ix2 k q) = (V m c main_call0_v16 : S128x256.Idx → EReal) (ix2 k q) := by
  obtain ⟨-, -, e0, e1, -⟩ := idx_facts t
  show (V m c main_call0_v16 : S128x256.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 256 + 1 * q.val = q.val; omega

/-- The packed bias row's block at any point is the whole row. -/
theorem iblk2_apply (c : Dev nD) (t : Fin cfg0.N) (u : Fin 1) (q : Fin 256) :
    (iblk m c 2 t : S1x256.Idx → EReal) (ix2 u q) = (V m c main_call0_v22 : S1x256.Idx → EReal) (ix2 u q) := by
  obtain ⟨-, -, -, -, e0, e1, -⟩ := idx_facts t
  show (V m c main_call0_v22 : S1x256.Idx → EReal) (((cfg0.win 2).blk t).view.emb (ix2 u q)) = _
  refine congrArg _ (funext fun a => Fin.ext ?_)
  match a with
  | ⟨0, _⟩ => show win0_2.index t (0 : Fin 2) * 1 + 1 * u.val = u.val; omega
  | ⟨1, _⟩ => show win0_2.index t (1 : Fin 2) * 256 + 1 * q.val = q.val; omega

/-- The packed gain row's block at any point is the whole row. -/
theorem iblk3_apply (c : Dev nD) (t : Fin cfg0.N) (u : Fin 1) (q : Fin 256) :
    (iblk m c 3 t : S1x256.Idx → EReal) (ix2 u q) = (V m c main_call0_v26 : S1x256.Idx → EReal) (ix2 u q) := by
  obtain ⟨-, -, -, -, -, -, e0, e1, -⟩ := idx_facts t
  show (V m c main_call0_v26 : S1x256.Idx → EReal) (((cfg0.win 3).blk t).view.emb (ix2 u q)) = _
  refine congrArg _ (funext fun a => Fin.ext ?_)
  match a with
  | ⟨0, _⟩ => show win0_3.index t (0 : Fin 2) * 1 + 1 * u.val = u.val; omega
  | ⟨1, _⟩ => show win0_3.index t (1 : Fin 2) * 256 + 1 * q.val = q.val; omega

/-- The packed offset row's block at any point is the whole row. -/
theorem iblk4_apply (c : Dev nD) (t : Fin cfg0.N) (u : Fin 1) (q : Fin 256) :
    (iblk m c 4 t : S1x256.Idx → EReal) (ix2 u q) = (V m c main_call0_v30 : S1x256.Idx → EReal) (ix2 u q) := by
  obtain ⟨-, -, -, -, -, -, -, -, e0, e1, -⟩ := idx_facts t
  show (V m c main_call0_v30 : S1x256.Idx → EReal) (((cfg0.win 4).blk t).view.emb (ix2 u q)) = _
  refine congrArg _ (funext fun a => Fin.ext ?_)
  match a with
  | ⟨0, _⟩ => show win0_4.index t (0 : Fin 2) * 1 + 1 * u.val = u.val; omega
  | ⟨1, _⟩ => show win0_4.index t (1 : Fin 2) * 256 + 1 * q.val = q.val; omega

/-- The averaging matrix's block at any point is the whole array. -/
theorem iblk5_apply (c : Dev nD) (t : Fin cfg0.N) (k : Fin 256) (q : Fin 256) :
    (iblk m c 5 t : S256x256.Idx → EReal) (ix2 k q) = (V m c main_call0_v18 : S256x256.Idx → EReal) (ix2 k q) := by
  obtain ⟨-, -, -, -, -, -, -, -, -, -, e0, e1, -⟩ := idx_facts t
  show (V m c main_call0_v18 : S256x256.Idx → EReal) (((cfg0.win 5).blk t).view.emb (ix2 k q)) = _
  refine congrArg _ (funext fun a => Fin.ext ?_)
  match a with
  | ⟨0, _⟩ => show win0_5.index t (0 : Fin 2) * 256 + 1 * k.val = k.val; omega
  | ⟨1, _⟩ => show win0_5.index t (1 : Fin 2) * 256 + 1 * q.val = q.val; omega

/-- The output's block at point t, row p, sits at packed row 1024t + p. -/
theorem emb6 (t : Fin cfg0.N) (p : Fin 1024) (q : Fin 256) :
    ((cfg0.win 6).blk t).view.emb (ix2 p q) = (ix2 (rowAt t p) q : S65536x256.Idx) := by
  obtain ⟨-, -, -, -, -, -, -, -, -, -, -, -, e0, e1⟩ := idx_facts t
  refine funext fun a => Fin.ext ?_
  match a with
  | ⟨0, _⟩ => show win0_6.index t (0 : Fin 2) * 1024 + 1 * p.val = 1024 * t.val + p.val; omega
  | ⟨1, _⟩ => show win0_6.index t (1 : Fin 2) * 256 + 1 * q.val = q.val; omega

/-! ## What a point stores -/

/-- The body's stored value at point t, entry (p, 32g + j), is the packed result at (1024t + p, 32g + j). -/
theorem point_value (c : Dev nD) (t : Fin cfg0.N) (p : Fin 1024) (g : Fin 8) (j : Fin 32) :
    k0_pay1 (F := Ideal) (iblk m c 0 t) (iblk m c 1 t) (iblk m c 2 t) (iblk m c 5 t) (iblk m c 3 t) (iblk m c 4 t) (ix2 p (lane g j))
      = packedOut m c (ix2 (rowAt t p) (lane g j)) := by
  refine (pay_apply (iblk m c 0 t) (iblk m c 1 t) (iblk m c 2 t) (iblk m c 5 t) (iblk m c 3 t) (iblk m c 4 t) p (lane g j)).trans ?_
  refine (blockOut_lane (iblk m c 0 t) (iblk m c 1 t) (iblk m c 2 t) (iblk m c 5 t) (iblk m c 3 t) (iblk m c 4 t)
    (argX m c) (argW m c) (argB m c) (argG m c) (argBt m c) p (fun g' => sample (rowAt t p) g')
    (fun g' a => ?_) (fun g' a g j => ?_) (fun g j => ?_) (fun g' j' g j => ?_) (fun g j => ?_) (fun g j => ?_) g j).trans
    (packedOut_lane m c (rowAt t p) g j).symm
  · exact (iblk0_apply m c t p (slot g' a)).trans (x_apply m c (rowAt t p) g' a)
  · exact (iblk1_apply m c t (slot g' a) (lane g j)).trans (w_apply m c g' a g j)
  · refine (iblk2_apply m c t (0 : Fin 1) (lane g j)).trans ?_
    rw [V_v22, packedRow_apply, centred_apply]; rfl
  · exact (iblk5_apply m c t (lane g' j') (lane g j)).trans (gmat_apply m c g' j' g j)
  · refine (iblk3_apply m c t (0 : Fin 1) (lane g j)).trans ?_
    rw [V_v26, packedRow_apply]; rfl
  · refine (iblk4_apply m c t (0 : Fin 1) (lane g j)).trans ?_
    rw [V_v30, packedRow_apply]; rfl

/-- WHAT POINT t WRITES BACK is block t of the packed result. -/
theorem flushed_eq (c : Dev nD) (t : Fin cfg0.N) :
    (dats m 0 c).flushed 6 t = ((cfg0.win 6).blk t).view.read (Elt Ideal) (packedOut m c) := by
  show (cfg0.win 6).cut (grid0.coords t) ((dats m 0 c).after 6 t) = _
  rw [after0_6]
  unfold out0_6
  rw [View.canon_unit_zero hz]
  simp only [View.ld_unit_zero (S := S1024x128) hz, View.ld_unit_zero (S := S128x256) hz, View.ld_unit_zero (S := S1x256) hz,
    View.ld_unit_zero (S := S256x256) hz]
  funext y
  obtain ⟨p, q, rfl⟩ : ∃ (p : Fin 1024) (q : Fin 256), y = ix2 p q := ⟨y 0, y 1, eq_ix2 y⟩
  obtain ⟨g, j, rfl⟩ := lane_split q
  show k0_pay1 (F := Ideal) (iblk m c 0 t) (iblk m c 1 t) (iblk m c 2 t) (iblk m c 5 t) (iblk m c 3 t) (iblk m c 4 t) (ix2 p (lane g j))
    = packedOut m c (((cfg0.win 6).blk t).view.emb (ix2 p (lane g j)))
  rw [emb6]
  exact point_value m c t p g j

/-! ## The cover and the array -/

/-- An index of the array is in point t's block iff each coordinate is in the block's range on its axis. -/
theorem mem_blk (t : Fin cfg0.N) (i : S65536x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_call0_v32).slice (win0_6.rect t)).set ↔ _
  rw [View.set_slice_whole, Rect.mem_set_unit]
  exact Iff.rfl

/-- Packed row r is in the block of point r / 1024. -/
theorem cover (i : S65536x256.Idx) : ∃ t : Fin cfg0.N, (cfg0.win 6).flush t = true ∧ i ∈ ((cfg0.win 6).blk t).view.set := by
  have hN : cfg0.N = 64 := N_0
  have h0 : (i 0).val < 65536 := idx2_lt0 i
  have h1 : (i 1).val < 256 := idx2_lt1 i
  refine ⟨⟨(i 0).val / 1024, by omega⟩, flush0_6 _, ?_⟩
  obtain ⟨-, -, -, -, -, -, -, -, -, -, -, -, e0, e1⟩ := idx_facts ⟨(i 0).val / 1024, by omega⟩
  rw [mem_blk]
  intro a
  match a with
  | ⟨0, _⟩ =>
    show win0_6.index ⟨(i 0).val / 1024, _⟩ (0 : Fin 2) * 1024 ≤ (i 0).val
      ∧ (i 0).val < win0_6.index ⟨(i 0).val / 1024, _⟩ (0 : Fin 2) * 1024 + 1024
    rw [e0]
    show (i 0).val / 1024 * 1024 ≤ (i 0).val ∧ (i 0).val < (i 0).val / 1024 * 1024 + 1024
    omega
  | ⟨1, _⟩ =>
    show win0_6.index ⟨(i 0).val / 1024, _⟩ (1 : Fin 2) * 256 ≤ (i 1).val
      ∧ (i 1).val < win0_6.index ⟨(i 0).val / 1024, _⟩ (1 : Fin 2) * 256 + 256
    rw [e1]
    omega

/-- THE ARRAY after the region: the packed result. -/
theorem final (c : Dev nD) : ((dats (F := Ideal) m 0 c).arrAt 6 cfg0.N : S65536x256.Idx → EReal) = packedOut m c :=
  (dats m 0 c).arrAt_eq_of_cover 6 (packedOut m c) (fun t _ => flushed_eq m c t) cover

end Cert.KernelIdeal.KV

end
-- ==== Proof.KTail.lean ====
/-
  The last host operation and the run of the whole program.

  After the region the program reshapes the packed result, 65536 rows of 256 lanes, to 524288 samples of 32 hidden units:
  row-major, so sample `s`, unit `j` is packed row `s / 8`, lane `32 * (s % 8) + j`. Whatever function `G` of the packed
  index the region leaves in its output array, the program ends with its result array at that function read through the
  reshape, and with its five argument arrays unchanged.
-/
import proofs.«176657_g2000305897215060_pallasbulk_1035_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.KTail

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The result array after the last host operation: the reshape of the region's output array. -/
theorem tail_v0 (c : Dev nD) :
    (Pipeline.afterTail₀ cfgs (dats (F := Ideal) m) 0 (V0 m) [hostOps1] c main_v0 : S524288x32.Idx → EReal)
      = shapeCast S524288x32 (((dats (F := Ideal) m 0 c).arrAt 6 cfg0.N : S65536x256.Idx → EReal)) shapeCasts_S65536x256_S524288x32 := by
  unfold Pipeline.afterTail₀
  show StableHlo.after hostOps1 _ (Proc.devRef .tc main_v0) = _
  after_results
  have e := Pipeline.withArrays_arr spec0 launch0.win.arr_inj c (V0 m c) (fun w => (dats (F := Ideal) m 0 c).arrAt w (cfgs 0).N) 6
  rw [e]
  rfl

/-- Sample `s`'s packed row is below 65536. -/
theorem row_lt (s : Fin 524288) : s.val / 8 < 65536 := by have := s.isLt; omega
/-- Its lane for unit `j` is below 256. -/
theorem lane_lt (s : Fin 524288) (j : Fin 32) : 32 * (s.val % 8) + j.val < 256 := by have := j.isLt; omega

/-- The reshape read at sample `s`, unit `j`. -/
theorem reshape_apply (G : S65536x256.Idx → EReal) (s : Fin 524288) (j : Fin 32) :
    shapeCast S524288x32 G shapeCasts_S65536x256_S524288x32 (ix2 s j)
      = G (ix2 (⟨s.val / 8, row_lt s⟩ : Fin 65536) (⟨32 * (s.val % 8) + j.val, lane_lt s j⟩ : Fin 256)) := by
  refine shapeCast_apply G _ (ix2 s j) _ ?_
  rw [Shape.rowMajor_val_two, Shape.rowMajor_val_two]
  show s.val / 8 * 256 + (32 * (s.val % 8) + j.val) = s.val * 32 + j.val
  omega

/-- The run: if the region leaves `G c` in its output array, and `G c` at packed row `s / 8`, lane `32 * (s % 8) + j` is
    `O c s j`, then every run ends with the result array at `O c` and the argument arrays unchanged. -/
theorem run_of_final (G : Dev nD → S65536x256.Idx → EReal)
    (hfinal : ∀ c, ((dats (F := Ideal) m 0 c).arrAt 6 cfg0.N : S65536x256.Idx → EReal) = G c)
    (O : Dev nD → Fin 524288 → Fin 32 → EReal)
    (hO : ∀ c (s : Fin 524288) (j : Fin 32),
      G c (ix2 (⟨s.val / 8, row_lt s⟩ : Fin 65536) (⟨32 * (s.val % 8) + j.val, lane_lt s j⟩ : Fin 256)) = O c s j) :
    θ_run (defs (F := Ideal)) (onTc (τ := τ) (main (F := Ideal))) ⟨m, fun _ => 0, ρ⟩ (fun r => ∀ c : Dev nD,
      r.2.mem ((c.tc : Thread nD τ).loc main_v0) = (fun i => O c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans
        ((tail_v0 m c).trans (by
          rw [hfinal c]
          funext i
          obtain ⟨s, j, rfl⟩ : ∃ (s : Fin 524288) (j : Fin 32), i = ix2 s j := ⟨i 0, i 1, eq_ix2 i⟩
          exact (reshape_apply (G c) s j).trans (hO c s j))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KTail

end
-- ==== Proof.KRun.lean ====
/-
  The run of the first program, read: its result array is the specification's function of its argument arrays.

  The region leaves the packed result in its output array; the reshape after the region reads sample s, hidden unit j at
  packed row s / 8, lane 32 (s % 8) + j, which is sample 8 (s / 8) + s % 8 = s at hidden unit j.
-/
import proofs.«176657_g2000305897215060_pallasbulk_1035_2_alg».proof.Proof.KArray
import proofs.«176657_g2000305897215060_pallasbulk_1035_2_alg».proof.Proof.KTail

noncomputable section

namespace Cert.KernelIdeal.KV

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- The packed result at packed row s / 8, lane 32 (s % 8) + j is the specification's result for sample s at hidden unit j. -/
theorem packedOut_sample (c : Dev nD) (s : Fin 524288) (j : Fin 32) :
    packedOut m c (ix2 (⟨s.val / 8, KTail.row_lt s⟩ : Fin 65536) (⟨32 * (s.val % 8) + j.val, KTail.lane_lt s j⟩ : Fin 256))
      = Cert.Spec.outK (argX m c) (argW m c) (argB m c) (argG m c) (argBt m c) s j := by
  have hs : sample (⟨s.val / 8, KTail.row_lt s⟩ : Fin 65536) (⟨s.val % 8, Nat.mod_lt _ (by norm_num)⟩ : Fin 8) = s :=
    Fin.ext (by show 8 * (s.val / 8) + s.val % 8 = s.val; omega)
  refine (packedOut_lane m c (⟨s.val / 8, KTail.row_lt s⟩ : Fin 65536) (⟨s.val % 8, Nat.mod_lt _ (by norm_num)⟩ : Fin 8) j).trans ?_
  rw [hs]

/-- THE RUN: every run of the program ends with its result array at the specification's function of the argument arrays
    as launched, and with the argument arrays unchanged. -/
theorem run : θ_run (defs (F := Ideal)) (onTc (τ := τ) (main (F := Ideal))) ⟨m, fun _ => 0, ρ⟩ (fun r => ∀ c : Dev nD,
      r.2.mem ((c.tc : Thread nD τ).loc main_v0)
        = (fun i => Cert.Spec.outK (argX m c) (argW m c) (argB m c) (argG m c) (argBt m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  KTail.run_of_final m ρ (packedOut m) (final m)
    (fun c => Cert.Spec.outK (argX m c) (argW m c) (argB m c) (argG m c) (argBt m c)) (packedOut_sample m)

end Cert.KernelIdeal.KV

end
-- ==== Proof.RTail.lean ====
/-
  The last host operation and the run of the whole program.

  After the region the program reshapes the packed result, 131072 rows of 128 lanes, to 524288 samples of 32 hidden units:
  row-major, so sample `s`, unit `j` is packed row `s / 4`, lane `32 * (s % 4) + j`. Whatever function `G` of the packed
  index the region leaves in its output array, the program ends with its result array at that function read through the
  reshape, and with its five argument arrays unchanged.
-/
import proofs.«176657_g2000305897215060_pallasbulk_1035_2_alg».proof.Proof.Gen.ReferenceIdeal.Frame
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.ReferenceIdeal.RTail

open Idealize.ShloMosaic Idealize.ShloMosaic.TcCoe Idealize.ShloMosaic.ValueIdx Idealize.SL.Sem Cert.ReferenceIdeal Cert.ReferenceIdeal.Gen
open Idealize.ShloMosaic.Pipeline (Dat)

variable (m : (ℓ : Loc nD τ sig) → Buf (Elt Ideal) ℓ) (ρ : Dev nD → PrngReg)

/-- The result array after the last host operation: the reshape of the region's output array. -/
theorem tail_v0 (c : Dev nD) :
    (Pipeline.afterTail₀ cfgs (dats (F := Ideal) m) 0 (V0 m) [hostOps1] c main_v0 : S524288x32.Idx → EReal)
      = shapeCast S524288x32 (((dats (F := Ideal) m 0 c).arrAt 6 cfg0.N : S131072x128.Idx → EReal)) shapeCasts_S131072x128_S524288x32 := by
  unfold Pipeline.afterTail₀
  show StableHlo.after hostOps1 _ (Proc.devRef .tc main_v0) = _
  after_results
  have e := Pipeline.withArrays_arr spec0 launch0.win.arr_inj c (V0 m c) (fun w => (dats (F := Ideal) m 0 c).arrAt w (cfgs 0).N) 6
  rw [e]
  rfl

/-- Sample `s`'s packed row is below 131072. -/
theorem row_lt (s : Fin 524288) : s.val / 4 < 131072 := by have := s.isLt; omega
/-- Its lane for unit `j` is below 128. -/
theorem lane_lt (s : Fin 524288) (j : Fin 32) : 32 * (s.val % 4) + j.val < 128 := by have := j.isLt; omega

/-- The reshape read at sample `s`, unit `j`. -/
theorem reshape_apply (G : S131072x128.Idx → EReal) (s : Fin 524288) (j : Fin 32) :
    shapeCast S524288x32 G shapeCasts_S131072x128_S524288x32 (ix2 s j)
      = G (ix2 (⟨s.val / 4, row_lt s⟩ : Fin 131072) (⟨32 * (s.val % 4) + j.val, lane_lt s j⟩ : Fin 128)) := by
  refine shapeCast_apply G _ (ix2 s j) _ ?_
  rw [Shape.rowMajor_val_two, Shape.rowMajor_val_two]
  show s.val / 4 * 128 + (32 * (s.val % 4) + j.val) = s.val * 32 + j.val
  omega

/-- The run: if the region leaves `G c` in its output array, and `G c` at packed row `s / 4`, lane `32 * (s % 4) + j` is
    `O c s j`, then every run ends with the result array at `O c` and the argument arrays unchanged. -/
theorem run_of_final (G : Dev nD → S131072x128.Idx → EReal)
    (hfinal : ∀ c, ((dats (F := Ideal) m 0 c).arrAt 6 cfg0.N : S131072x128.Idx → EReal) = G c)
    (O : Dev nD → Fin 524288 → Fin 32 → EReal)
    (hO : ∀ c (s : Fin 524288) (j : Fin 32),
      G c (ix2 (⟨s.val / 4, row_lt s⟩ : Fin 131072) (⟨32 * (s.val % 4) + j.val, lane_lt s j⟩ : Fin 128)) = O c s j) :
    θ_run (defs (F := Ideal)) (onTc (τ := τ) (main (F := Ideal))) ⟨m, fun _ => 0, ρ⟩ (fun r => ∀ c : Dev nD,
      r.2.mem ((c.tc : Thread nD τ).loc main_v0) = (fun i => O c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans
        ((tail_v0 m c).trans (by
          rw [hfinal c]
          funext i
          obtain ⟨s, j, rfl⟩ : ∃ (s : Fin 524288) (j : Fin 32), i = ix2 s j := ⟨i 0, i 1, eq_ix2 i⟩
          exact (reshape_apply (G c) s j).trans (hO c s j))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.RTail

end
-- ==== Proof.RPacked.lean ====
/-
  Four samples packed in one row of 128 lanes, and the packed row function.

  Packed row `r` holds samples `4 r + g`, `g < 4`: lane `32 g + j` of the row is hidden unit `j` of sample `4 r + g`, and
  column `16 g + a` of the packed input row is input feature `a` of that sample. The packed weight matrix is block diagonal,
  entry `(16 g' + a, 32 g + j)` being `w a j` when `g' = g` and zero otherwise; the packed averaging matrix has
  `1/32` in its diagonal blocks and zero elsewhere; bias, scale and shift are repeated in each group of 32 lanes.

  `outRow` is the row function on packed operands: the product with the packed weights plus bias, the mean and the variance as
  products with the packed averaging matrix, the normalisation and the rectifier. A sum over the 64 columns (or 128 lanes)
  taken group by group has one group whose factor is one and three whose factor is zero, so on lane `32 g + j` every sum
  collapses to the sum over group `g`: the packed row function at that lane is the specification at sample `4 r + g`, unit
  `j`. Only `0 * a = 0`, `a * 0 = 0`, `1 * a = a` and re-association of sums are used; all hold on the extended reals.
-/
import proofs.«176657_g2000305897215060_pallasbulk_1035_2_alg».proof.Proof.Spec
import proofs.«176657_g2000305897215060_pallasbulk_1035_2_alg».proof.Proof.LibSumChunks

noncomputable section

namespace Cert.ReferenceIdeal.RV

open Cert.Spec Idealize.ShloMosaic

/-- Lane `32 g + j` of a packed row. -/
abbrev lane (g : Fin 4) (j : Fin 32) : Fin 128 := ⟨32 * g.val + j.val, by omega⟩
/-- Column `16 g + a` of a packed input row. -/
abbrev col (g : Fin 4) (a : Fin 16) : Fin 64 := ⟨16 * g.val + a.val, by omega⟩
/-- Sample `4 r + g`. -/
abbrev smp (r : Fin 131072) (g : Fin 4) : Fin 524288 := ⟨4 * r.val + g.val, by omega⟩

/-- The 4 × 4 identity. -/
def eye (g' g : Fin 4) : EReal := if g' = g then 1 else 0

theorem eye_self (g : Fin 4) : eye g g = 1 := if_pos rfl
theorem eye_ne {g' g : Fin 4} (h : g' ≠ g) : eye g' g = 0 := if_neg h

section Row

variable (xr : Fin 64 → EReal) (wp : Fin 64 → Fin 128 → EReal) (bp gp bep : Fin 128 → EReal) (gm : Fin 128 → Fin 128 → EReal)

/-- The packed activation on lane `q`. -/
def hRow (q : Fin 128) : EReal := (∑ l : Fin 64, xr l * wp l q) + bp q
/-- Its product with the averaging matrix. -/
def meanRow (q : Fin 128) : EReal := ∑ l : Fin 128, hRow xr wp bp l * gm l q
/-- The centred packed activation. -/
def dRow (q : Fin 128) : EReal := hRow xr wp bp q - meanRow xr wp bp gm q
/-- The product of its square with the averaging matrix. -/
def varRow (q : Fin 128) : EReal := ∑ l : Fin 128, (dRow xr wp bp gm l * dRow xr wp bp gm l) * gm l q
/-- The packed result on lane `q`. -/
def outRow (q : Fin 128) : EReal :=
  max (dRow xr wp bp gm q * Ideal.rsqrt (varRow xr wp bp gm q + cEps) * gp q + bep q) 0

end Row

/-- A sum over 4 groups whose terms carry the factor `eye g' g` (through `hone` on group `g`, `hzero` elsewhere) is
    the sum over group `g`. -/
theorem sum_groups {N n : ℕ} (hN : N = 4 * n) (f : Fin N → EReal) (F : Fin n → EReal) (g : Fin 4)
    (hone : ∀ k : Fin n, f ⟨n * g.val + k.val, LibSumChunks.chunk_lt hN g k⟩ = F k)
    (hzero : ∀ g' : Fin 4, g' ≠ g → ∀ k : Fin n, f ⟨n * g'.val + k.val, LibSumChunks.chunk_lt hN g' k⟩ = 0) :
    ∑ i : Fin N, f i = ∑ k : Fin n, F k := by
  rw [LibSumChunks.sum_chunks 4 n hN f, Finset.sum_eq_single g]
  · exact Finset.sum_congr rfl fun k _ => hone k
  · intro g' _ hg'
    exact Finset.sum_eq_zero fun k _ => hzero g' hg' k
  · intro h; exact absurd (Finset.mem_univ g) h

section Collapse

variable (x : Fin 524288 → Fin 16 → EReal) (w : Fin 16 → Fin 32 → EReal) (b γ β : Fin 32 → EReal)
variable (r : Fin 131072)
variable (xr : Fin 64 → EReal) (wp : Fin 64 → Fin 128 → EReal) (bp gp bep : Fin 128 → EReal) (gm : Fin 128 → Fin 128 → EReal)
variable (hx : ∀ g' a, xr (col g' a) = x (smp r g') a)
variable (hw : ∀ g' a g j, wp (col g' a) (lane g j) = eye g' g * w a j)
variable (hb : ∀ g j, bp (lane g j) = b j)
variable (hgm : ∀ g' j' g j, gm (lane g' j') (lane g j) = eye g' g * cInv32)

include hx hw hb in
/-- The packed activation on lane `32 g + j` is the activation of sample `4 r + g` at unit `j`. -/
theorem hRow_lane (g : Fin 4) (j : Fin 32) : hRow xr wp bp (lane g j) = hR x w b (smp r g) j := by
  unfold hRow hR
  rw [hb]
  refine congrArg (· + b j) ?_
  refine sum_groups (n := 16) rfl _ _ g (fun a => ?_) (fun g' hg' a => ?_)
  · show xr (col g a) * wp (col g a) (lane g j) = _
    rw [hx, hw, eye_self, one_mul]
  · show xr (col g' a) * wp (col g' a) (lane g j) = _
    rw [hw, eye_ne hg', zero_mul, mul_zero]

include hx hw hb hgm in
/-- The product with the averaging matrix on lane `32 g + j` is the mean of sample `4 r + g`. -/
theorem meanRow_lane (g : Fin 4) (j : Fin 32) : meanRow xr wp bp gm (lane g j) = meanR x w b (smp r g) := by
  unfold meanRow meanR
  refine sum_groups (n := 32) rfl _ _ g (fun j' => ?_) (fun g' hg' j' => ?_)
  · show hRow xr wp bp (lane g j') * gm (lane g j') (lane g j) = _
    rw [hRow_lane x w b r xr wp bp hx hw hb, hgm, eye_self, one_mul]
  · show hRow xr wp bp (lane g' j') * gm (lane g' j') (lane g j) = _
    rw [hgm, eye_ne hg', zero_mul, mul_zero]

include hx hw hb hgm in
/-- The centred packed activation on lane `32 g + j` is the centred activation of sample `4 r + g` at unit `j`. -/
theorem dRow_lane (g : Fin 4) (j : Fin 32) : dRow xr wp bp gm (lane g j) = dR x w b (smp r g) j := by
  unfold dRow dR
  rw [hRow_lane x w b r xr wp bp hx hw hb, meanRow_lane x w b r xr wp bp gm hx hw hb hgm]

include hx hw hb hgm in
/-- The product of the square with the averaging matrix on lane `32 g + j` is the variance of sample `4 r + g`. -/
theorem varRow_lane (g : Fin 4) (j : Fin 32) : varRow xr wp bp gm (lane g j) = varR x w b (smp r g) := by
  unfold varRow varR
  refine sum_groups (n := 32) rfl _ _ g (fun j' => ?_) (fun g' hg' j' => ?_)
  · show (dRow xr wp bp gm (lane g j') * dRow xr wp bp gm (lane g j')) * gm (lane g j') (lane g j) = _
    rw [dRow_lane x w b r xr wp bp gm hx hw hb hgm, hgm, eye_self, one_mul]
  · show (dRow xr wp bp gm (lane g' j') * dRow xr wp bp gm (lane g' j')) * gm (lane g' j') (lane g j) = _
    rw [hgm, eye_ne hg', zero_mul, mul_zero]

variable (hg : ∀ g j, gp (lane g j) = γ j) (hbe : ∀ g j, bep (lane g j) = β j)

include hx hw hb hgm hg hbe in
/-- The packed result on lane `32 g + j` of row `r` is the specification at sample `4 r + g`, unit `j`. -/
theorem outRow_lane (g : Fin 4) (j : Fin 32) :
    outRow xr wp bp gp bep gm (lane g j) = outR x w b γ β (smp r g) j := by
  unfold outRow outR
  rw [dRow_lane x w b r xr wp bp gm hx hw hb hgm, varRow_lane x w b r xr wp bp gm hx hw hb hgm, hg, hbe]

end Collapse

end Cert.ReferenceIdeal.RV

end
-- ==== Proof.RBody.lean ====
/-
  The kernel body's stored value, read at an entry, is the packed row function.

  The body multiplies its [1024, 64] block of packed input rows by the packed weights, adds the bias row, multiplies by the
  averaging matrix to get the mean, subtracts, multiplies the square by the averaging matrix to get the variance, scales by
  the reciprocal square root of the variance plus ε and by the scale row, adds the shift row and takes the maximum with zero.
  Each matrix product into the zero accumulator is, at an entry, the plain sum over the contracted axis; everything else is
  entry by entry, and a [1, 128] row broadcast over the 1024 rows reads its one row. So entry `(p, q)` of the stored value is
  `outRow` of row `p` of the block and the other operands, at lane `q`.
-/
import proofs.«176657_g2000305897215060_pallasbulk_1035_2_alg».proof.Proof.Gen.ReferenceIdeal.Skeleton
import proofs.«176657_g2000305897215060_pallasbulk_1035_2_alg».proof.Proof.LibPlainMatmul
import proofs.«176657_g2000305897215060_pallasbulk_1035_2_alg».proof.Proof.RPacked
import Idealize.ShloMosaic.Lib.Pipeline.Value
import Idealize.ShloMosaic.Lib.ValueLayout

noncomputable section

namespace Cert.ReferenceIdeal.RV

open Cert.ReferenceIdeal Cert.ReferenceIdeal.Gen Cert.Spec Idealize.ShloMosaic Idealize.ShloMosaic.ValueIdx

variable (x0 : FVec Ideal S1024x64 .f32) (x1 : FVec Ideal S64x128 .f32) (x2 x3 x4 : FVec Ideal S1x128 .f32)
  (x5 : FVec Ideal S128x128 .f32)

/-- The block's activation: the product with the packed weights plus the bias row. -/
def hVec : FVec Ideal S1024x128 .f32 :=
  addf (matmul dot_S1024x64_S64x128_S1024x128_1_0_0_1_n_n none x0 x1 (constant S1024x128 .f32 0x00000000#32))
    (broadcastTo S1024x128 x2 broadcasts_S1x128_S1024x128)
/-- Its product with the averaging matrix. -/
def meanVec : FVec Ideal S1024x128 .f32 :=
  matmul dot_S1024x128_S128x128_S1024x128_1_0_0_1_n_n none (hVec x0 x1 x2) x5 (constant S1024x128 .f32 0x00000000#32)
/-- The centred activation. -/
def dVec : FVec Ideal S1024x128 .f32 := subf (hVec x0 x1 x2) (meanVec x0 x1 x2 x5)
/-- The product of its square with the averaging matrix. -/
def varVec : FVec Ideal S1024x128 .f32 :=
  matmul dot_S1024x128_S128x128_S1024x128_1_0_0_1_n_n none (mulf (dVec x0 x1 x2 x5) (dVec x0 x1 x2 x5)) x5
    (constant S1024x128 .f32 0x00000000#32)
/-- The stored value. -/
def outVec : FVec Ideal S1024x128 .f32 :=
  maximumf
    (addf
      (mulf
        (mulf (dVec x0 x1 x2 x5)
          (rsqrt (addf (varVec x0 x1 x2 x5) (broadcast S1024x128 (Scalar.ofBits (F := Ideal) .f32 0x3727C5AC#32)))))
        (broadcastTo S1024x128 x3 broadcasts_S1x128_S1024x128))
      (broadcastTo S1024x128 x4 broadcasts_S1x128_S1024x128))
    (broadcast S1024x128 (Scalar.ofBits (F := Ideal) .f32 0x00000000#32))

/-- The body's stored value is that composition (the identity re-layings dropped). -/
theorem pay_eq : k0_pay1 (F := Ideal) x0 x1 x2 x5 x3 x4 = outVec x0 x1 x2 x3 x4 x5 := by
  unfold k0_pay1 outVec varVec dVec meanVec hVec
  simp only [shapeCast_self]

/-- Row `p` of the block. -/
abbrev rowOf (p : Fin 1024) : Fin 64 → EReal := fun l => x0 (ix2 p l)
/-- A matrix operand by coordinates. -/
abbrev mat64 : Fin 64 → Fin 128 → EReal := fun l q => x1 (ix2 l q)
abbrev mat128 : Fin 128 → Fin 128 → EReal := fun l q => x5 (ix2 l q)
/-- A row operand by its lane. -/
abbrev rowv (v : FVec Ideal S1x128 .f32) : Fin 128 → EReal := fun q => v (ix2 (0 : Fin 1) q)

theorem hVec_apply (p : Fin 1024) (q : Fin 128) :
    hVec x0 x1 x2 (ix2 p q) = hRow (rowOf x0 p) (mat64 x1) (rowv x2) q := by
  unfold hVec hRow
  show _ + _ = _ + _
  refine congrArg₂ (· + ·) ?_ ?_
  · exact PlainMatmul.plain_matmul_zero_apply 1024 64 128 none x0 x1 p q
  · exact broadcastTo_1b_ab_apply x2 _ p q

theorem meanVec_apply (p : Fin 1024) (q : Fin 128) :
    meanVec x0 x1 x2 x5 (ix2 p q) = meanRow (rowOf x0 p) (mat64 x1) (rowv x2) (mat128 x5) q := by
  unfold meanVec meanRow
  refine (PlainMatmul.plain_matmul_zero_apply 1024 128 128 none (hVec x0 x1 x2) x5 p q).trans ?_
  exact Finset.sum_congr rfl fun l _ => congrArg (· * x5 (ix2 l q)) (hVec_apply x0 x1 x2 p l)

theorem dVec_apply (p : Fin 1024) (q : Fin 128) :
    dVec x0 x1 x2 x5 (ix2 p q) = dRow (rowOf x0 p) (mat64 x1) (rowv x2) (mat128 x5) q := by
  unfold dVec dRow
  show _ - _ = _ - _
  rw [hVec_apply, meanVec_apply]

theorem varVec_apply (p : Fin 1024) (q : Fin 128) :
    varVec x0 x1 x2 x5 (ix2 p q) = varRow (rowOf x0 p) (mat64 x1) (rowv x2) (mat128 x5) q := by
  unfold varVec varRow
  refine (PlainMatmul.plain_matmul_zero_apply 1024 128 128 none (mulf (dVec x0 x1 x2 x5) (dVec x0 x1 x2 x5)) x5 p q).trans ?_
  refine Finset.sum_congr rfl fun l _ => congrArg (· * x5 (ix2 l q)) ?_
  show dVec x0 x1 x2 x5 (ix2 p l) * dVec x0 x1 x2 x5 (ix2 p l) = _
  rw [dVec_apply]

theorem outVec_apply (p : Fin 1024) (q : Fin 128) :
    outVec x0 x1 x2 x3 x4 x5 (ix2 p q)
      = outRow (rowOf x0 p) (mat64 x1) (rowv x2) (rowv x3) (rowv x4) (mat128 x5) q := by
  unfold outVec outRow
  show max (dVec x0 x1 x2 x5 (ix2 p q) * Ideal.rsqrt (varVec x0 x1 x2 x5 (ix2 p q) + cEps)
      * broadcastTo S1024x128 x3 broadcasts_S1x128_S1024x128 (ix2 p q)
      + broadcastTo S1024x128 x4 broadcasts_S1x128_S1024x128 (ix2 p q)) (Ideal.ofBits .f32 0x00000000#32) = _
  rw [Ideal.ofBits_zero_f32, dVec_apply, varVec_apply, broadcastTo_1b_ab_apply x3 _ p q, broadcastTo_1b_ab_apply x4 _ p q]

/-- Entry `(p, q)` of the body's stored value is the packed row function of row `p` of the block, at lane `q`. -/
theorem pay_apply (p : Fin 1024) (q : Fin 128) :
    k0_pay1 (F := Ideal) x0 x1 x2 x5 x3 x4 (ix2 p q)
      = outRow (rowOf x0 p) (mat64 x1) (rowv x2) (rowv x3) (rowv x4) (mat128 x5) q := by
  rw [pay_eq]
  exact outVec_apply x0 x1 x2 x3 x4 x5 p q

end Cert.ReferenceIdeal.RV

end
-- ==== Proof.RArray.lean ====
/-
  From the blocks to the packed result array.

  Grid point `t` works on packed rows `1024 t … 1024 t + 1023`: its input block is those rows of the packed input, the five
  other operands are read whole at every point, and what it writes back is those rows of the result. Since the packed row
  function reads only its own row of the packed input, the block written at point `t` is block `t` of one array, `packedArr`:
  entry `(r, q)` is the packed row function of row `r` of the packed input at lane `q`. Row `r` is covered by point `r / 1024`, so
  after the run the result array is `packedArr`.
-/
import proofs.«176657_g2000305897215060_pallasbulk_1035_2_alg».proof.Proof.Gen.ReferenceIdeal.Frame
import proofs.«176657_g2000305897215060_pallasbulk_1035_2_alg».proof.Proof.RBody

noncomputable section

namespace Cert.ReferenceIdeal.RV

open Cert.ReferenceIdeal Cert.ReferenceIdeal.Gen Cert.Spec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The packed result array -/

/-- The six operand arrays as the region finds them. -/
abbrev Vx (c : Dev nD) : S131072x64.Idx → EReal := V m c main_call0_v0
abbrev Vw (c : Dev nD) : S64x128.Idx → EReal := V m c main_call0_v7
abbrev Vb (c : Dev nD) : S1x128.Idx → EReal := V m c main_call0_v13
abbrev Vg (c : Dev nD) : S1x128.Idx → EReal := V m c main_call0_v17
abbrev Vbe (c : Dev nD) : S1x128.Idx → EReal := V m c main_call0_v21
abbrev Vgm (c : Dev nD) : S128x128.Idx → EReal := V m c main_call0_v9

/-- Entry `(r, q)` of the packed result: the packed row function of row `r` of the packed input, at lane `q`. -/
def packedOut (c : Dev nD) (r : Fin 131072) (q : Fin 128) : EReal :=
  outRow (fun l => Vx m c (ix2 r l)) (fun l q => Vw m c (ix2 l q)) (fun q => Vb m c (ix2 (0 : Fin 1) q))
    (fun q => Vg m c (ix2 (0 : Fin 1) q)) (fun q => Vbe m c (ix2 (0 : Fin 1) q)) (fun l q => Vgm m c (ix2 l q)) q

/-- The packed result array. -/
def packedArr (c : Dev nD) : S131072x128.Idx → EReal := fun i => packedOut m c (i 0) (i 1)

/-! ## The index maps over the grid -/

theorem hz : (![0, 0] : Fin 2 → Nat) = fun _ => 0 := funext fun a => by fin_cases a <;> rfl

/-- The input and the result move one block of 1024 rows per point; the other operands stay at block (0, 0). -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem t_lt (t : Fin cfg0.N) : t.val < 128 := by
  have hN : cfg0.N = 128 := N_0
  have := t.isLt
  omega

/-- Row `p` of point `t`'s block is packed row `1024 t + p`. -/
abbrev rowAt (t : Fin cfg0.N) (p : Fin 1024) : Fin 131072 := ⟨1024 * t.val + p.val, by have := t_lt t; omega⟩

/-! ## The blocks read off the arrays -/

theorem iblk0_apply (c : Dev nD) (t : Fin cfg0.N) (p : Fin 1024) (l : Fin 64) :
    (iblk m c 0 t : FVec Ideal S1024x64 .f32) (ix2 p l) = Vx m c (ix2 (rowAt t p) l) := by
  obtain ⟨e0, e1, -⟩ := idx_facts t
  unfold iblk
  rw [View.read_apply]
  show (V m c main_call0_v0 : S131072x64.Idx → EReal) _ = (V m c main_call0_v0 : S131072x64.Idx → EReal) _
  refine congrArg (V m c main_call0_v0 : S131072x64.Idx → EReal) ?_
  funext a
  apply Fin.ext
  match a with
  | ⟨0, _⟩ => show win0_0.index t (0 : Fin 2) * 1024 + 1 * p.val = 1024 * t.val + p.val; rw [e0]; omega
  | ⟨1, _⟩ => show win0_0.index t (1 : Fin 2) * 64 + 1 * l.val = l.val; rw [e1]; omega

theorem iblk1_apply (c : Dev nD) (t : Fin cfg0.N) (l : Fin 64) (q : Fin 128) :
    (iblk m c 1 t : FVec Ideal S64x128 .f32) (ix2 l q) = Vw m c (ix2 l q) := by
  obtain ⟨-, -, -, -, e0, e1, -⟩ := idx_facts t
  unfold iblk
  rw [View.read_apply]
  show (V m c main_call0_v7 : S64x128.Idx → EReal) _ = (V m c main_call0_v7 : S64x128.Idx → EReal) _
  refine congrArg (V m c main_call0_v7 : S64x128.Idx → EReal) ?_
  funext a
  apply Fin.ext
  match a with
  | ⟨0, _⟩ => show win0_1.index t (0 : Fin 2) * 64 + 1 * l.val = l.val; rw [e0]; omega
  | ⟨1, _⟩ => show win0_1.index t (1 : Fin 2) * 128 + 1 * q.val = q.val; rw [e1]; omega

theorem iblk2_apply (c : Dev nD) (t : Fin cfg0.N) (u : Fin 1) (q : Fin 128) :
    (iblk m c 2 t : FVec Ideal S1x128 .f32) (ix2 u q) = Vb m c (ix2 u q) := by
  obtain ⟨-, -, -, -, -, -, e0, e1, -⟩ := idx_facts t
  unfold iblk
  rw [View.read_apply]
  show (V m c main_call0_v13 : S1x128.Idx → EReal) _ = (V m c main_call0_v13 : S1x128.Idx → EReal) _
  refine congrArg (V m c main_call0_v13 : S1x128.Idx → EReal) ?_
  funext a
  apply Fin.ext
  match a with
  | ⟨0, _⟩ => show win0_2.index t (0 : Fin 2) * 1 + 1 * u.val = u.val; rw [e0]; omega
  | ⟨1, _⟩ => show win0_2.index t (1 : Fin 2) * 128 + 1 * q.val = q.val; rw [e1]; omega

theorem iblk3_apply (c : Dev nD) (t : Fin cfg0.N) (u : Fin 1) (q : Fin 128) :
    (iblk m c 3 t : FVec Ideal S1x128 .f32) (ix2 u q) = Vg m c (ix2 u q) := by
  obtain ⟨-, -, -, -, -, -, -, -, e0, e1, -⟩ := idx_facts t
  unfold iblk
  rw [View.read_apply]
  show (V m c main_call0_v17 : S1x128.Idx → EReal) _ = (V m c main_call0_v17 : S1x128.Idx → EReal) _
  refine congrArg (V m c main_call0_v17 : S1x128.Idx → EReal) ?_
  funext a
  apply Fin.ext
  match a with
  | ⟨0, _⟩ => show win0_3.index t (0 : Fin 2) * 1 + 1 * u.val = u.val; rw [e0]; omega
  | ⟨1, _⟩ => show win0_3.index t (1 : Fin 2) * 128 + 1 * q.val = q.val; rw [e1]; omega

theorem iblk4_apply (c : Dev nD) (t : Fin cfg0.N) (u : Fin 1) (q : Fin 128) :
    (iblk m c 4 t : FVec Ideal S1x128 .f32) (ix2 u q) = Vbe m c (ix2 u q) := by
  obtain ⟨-, -, -, -, -, -, -, -, -, -, e0, e1, -⟩ := idx_facts t
  unfold iblk
  rw [View.read_apply]
  show (V m c main_call0_v21 : S1x128.Idx → EReal) _ = (V m c main_call0_v21 : S1x128.Idx → EReal) _
  refine congrArg (V m c main_call0_v21 : S1x128.Idx → EReal) ?_
  funext a
  apply Fin.ext
  match a with
  | ⟨0, _⟩ => show win0_4.index t (0 : Fin 2) * 1 + 1 * u.val = u.val; rw [e0]; omega
  | ⟨1, _⟩ => show win0_4.index t (1 : Fin 2) * 128 + 1 * q.val = q.val; rw [e1]; omega

theorem iblk5_apply (c : Dev nD) (t : Fin cfg0.N) (l : Fin 128) (q : Fin 128) :
    (iblk m c 5 t : FVec Ideal S128x128 .f32) (ix2 l q) = Vgm m c (ix2 l q) := by
  obtain ⟨-, -, -, -, -, -, -, -, -, -, -, -, e0, e1⟩ := idx_facts t
  unfold iblk
  rw [View.read_apply]
  show (V m c main_call0_v9 : S128x128.Idx → EReal) _ = (V m c main_call0_v9 : S128x128.Idx → EReal) _
  refine congrArg (V m c main_call0_v9 : S128x128.Idx → EReal) ?_
  funext a
  apply Fin.ext
  match a with
  | ⟨0, _⟩ => show win0_5.index t (0 : Fin 2) * 128 + 1 * l.val = l.val; rw [e0]; omega
  | ⟨1, _⟩ => show win0_5.index t (1 : Fin 2) * 128 + 1 * q.val = q.val; rw [e1]; omega

/-- Entry `(p, q)` of the result's block at point `t` is entry `(1024 t + p, q)` of the array. -/
theorem emb6 (t : Fin cfg0.N) (p : Fin 1024) (q : Fin 128) :
    ((cfg0.win 6).blk t).view.emb (ix2 p q) = (ix2 (rowAt t p) q : S131072x128.Idx) := by
  obtain ⟨-, -, e0, e1, -⟩ := idx_facts t
  funext a
  apply Fin.ext
  match a with
  | ⟨0, _⟩ => show win0_6.index t (0 : Fin 2) * 1024 + 1 * p.val = 1024 * t.val + p.val; rw [e0]; omega
  | ⟨1, _⟩ => show win0_6.index t (1 : Fin 2) * 128 + 1 * q.val = q.val; rw [e1]; omega

/-! ## What a point writes back -/

/-- The body's stored value at point `t`, entry `(p, q)`, is entry `(1024 t + p, q)` of the packed result. -/
theorem stored_apply (c : Dev nD) (t : Fin cfg0.N) (p : Fin 1024) (q : Fin 128) :
    k0_pay1 (F := Ideal) (iblk m c 0 t) (iblk m c 1 t) (iblk m c 2 t) (iblk m c 5 t) (iblk m c 3 t) (iblk m c 4 t) (ix2 p q)
      = packedOut m c (rowAt t p) q := by
  refine (pay_apply (iblk m c 0 t) (iblk m c 1 t) (iblk m c 2 t) (iblk m c 3 t) (iblk m c 4 t) (iblk m c 5 t) p q).trans ?_
  unfold packedOut
  have h0 : rowOf (iblk m c 0 t) p = fun l => Vx m c (ix2 (rowAt t p) l) := funext fun l => iblk0_apply m c t p l
  have h1 : mat64 (iblk m c 1 t) = fun l q => Vw m c (ix2 l q) := funext fun l => funext fun q => iblk1_apply m c t l q
  have h2 : rowv (iblk m c 2 t) = fun q => Vb m c (ix2 (0 : Fin 1) q) := funext fun q => iblk2_apply m c t 0 q
  have h3 : rowv (iblk m c 3 t) = fun q => Vg m c (ix2 (0 : Fin 1) q) := funext fun q => iblk3_apply m c t 0 q
  have h4 : rowv (iblk m c 4 t) = fun q => Vbe m c (ix2 (0 : Fin 1) q) := funext fun q => iblk4_apply m c t 0 q
  have h5 : mat128 (iblk m c 5 t) = fun l q => Vgm m c (ix2 l q) := funext fun l => funext fun q => iblk5_apply m c t l q
  rw [h0, h1, h2, h3, h4, h5]

/-- What point `t` writes back is block `t` of the packed result array. -/
theorem flushed_eq (c : Dev nD) (t : Fin cfg0.N) :
    (dats m 0 c).flushed 6 t = ((cfg0.win 6).blk t).view.read (Elt Ideal) (packedArr m c) := by
  show (cfg0.win 6).cut (grid0.coords t) ((dats m 0 c).after 6 t) = _
  rw [after0_6]
  unfold out0_6
  rw [View.canon_unit_zero hz]
  simp only [View.ld_unit_zero (S := S1024x64) hz, View.ld_unit_zero (S := S64x128) hz, View.ld_unit_zero (S := S1x128) hz,
    View.ld_unit_zero (S := S128x128) hz]
  funext j
  obtain ⟨p, q, rfl⟩ : ∃ (p : Fin 1024) (q : Fin 128), j = ix2 p q := ⟨j 0, j 1, eq_ix2 j⟩
  show k0_pay1 (F := Ideal) (iblk m c 0 t) (iblk m c 1 t) (iblk m c 2 t) (iblk m c 5 t) (iblk m c 3 t) (iblk m c 4 t) (ix2 p q)
    = packedArr m c (((cfg0.win 6).blk t).view.emb (ix2 p q))
  rw [emb6 t p q]
  exact stored_apply m c t p q

/-! ## The cover and the array -/

/-- An entry of the array is in point `t`'s block iff each coordinate is in the block's range on its axis. -/
theorem mem_blk6 (t : Fin cfg0.N) (i : S131072x128.Idx) :
    i ∈ ((cfg0.win 6).blk t).view.set
      ↔ ∀ a : Fin 2, win0_6.index t a * S1024x128.size a ≤ (i a).val ∧ (i a).val < win0_6.index t a * S1024x128.size a + S1024x128.size a := by
  show i ∈ ((View.whole main_call0_v22).slice (win0_6.rect t)).set ↔ _
  rw [View.set_slice_whole, Rect.mem_set_unit]
  exact Iff.rfl

/-- Row `r` of the array is covered by point `r / 1024`. -/
theorem cover6 (i : S131072x128.Idx) : ∃ t : Fin cfg0.N, (cfg0.win 6).flush t = true ∧ i ∈ ((cfg0.win 6).blk t).view.set := by
  have hN : cfg0.N = 128 := N_0
  have hi0 : (i 0).val < 131072 := (i 0).isLt
  have hi1 : (i 1).val < 128 := (i 1).isLt
  let t : Fin cfg0.N := ⟨(i 0).val / 1024, by rw [hN]; omega⟩
  have ht : t.val = (i 0).val / 1024 := rfl
  obtain ⟨-, -, e0, e1, -⟩ := idx_facts t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 128 ≤ (i 1).val ∧ (i 1).val < win0_6.index t (1 : Fin 2) * 128 + 128
    rw [e1]; omega

/-- After the run the result array is the packed result array. -/
theorem final6 (c : Dev nD) : (dats m 0 c).arrAt 6 cfg0.N = packedArr m c :=
  (dats m 0 c).arrAt_eq_of_cover 6 (packedArr m c) (fun t _ => flushed_eq m c t) cover6

end Cert.ReferenceIdeal.RV

end
-- ==== Proof.RHeadIdx.lean ====
/-
  The packed operands as terms of the argument arrays, read at an index.

  * `xPacked`: the [524288, 16] input re-laid as [131072, 64]; entry `(r, 16 g + a)` is entry `(4 r + g, a)` of the input.
  * `eyeArr`: the 4 × 4 identity as a comparison of the two coordinate arrays converted to floats: 1 on the diagonal, 0 off it.
  * `kronW e A`, `kronG e B`: the Kronecker product of a 4 × 4 array with a [16, 32] (resp. [32, 32]) array, formed as the product of
    two broadcasts to [4, n, 4, 32] re-laid as [4 n, 128]; entry `(n g' + a, 32 g + j)` is `e (g', g) * A (a, j)`.
  * `splat32`: the [32, 32] array every entry of which is the word of 1/32.
  * `tile v`: a vector of 32 entries repeated 4 times as a [1, 128] row; entry `(0, 32 g + j)` is `v j`.
-/
import proofs.«176657_g2000305897215060_pallasbulk_1035_2_alg».proof.Proof.Gen.ReferenceIdeal
import proofs.«176657_g2000305897215060_pallasbulk_1035_2_alg».proof.Proof.RPacked
import Idealize.ShloMosaic.Lib.Pipeline.Value
import Idealize.ShloMosaic.Lib.ValueLayout

noncomputable section

namespace Cert.ReferenceIdeal.RV

open Cert.ReferenceIdeal Cert.ReferenceIdeal.Gen Cert.Spec Idealize.ShloMosaic Idealize.ShloMosaic.ValueIdx

/-! ## The input, four samples to a row -/

/-- The input re-laid with four samples to a row. -/
def xPacked (X : S524288x16.Idx → EReal) : S131072x64.Idx → EReal :=
  shapeCast S131072x64 X shapeCasts_S524288x16_S131072x64

/-- Column `16 g + a` of packed row `r` is feature `a` of sample `4 r + g`. -/
theorem xPacked_apply (X : S524288x16.Idx → EReal) (r : Fin 131072) (g : Fin 4) (a : Fin 16) :
    xPacked X (ix2 r (col g a)) = X (ix2 (smp r g) a) :=
  shapeCast_apply X _ (ix2 r (col g a)) (ix2 (smp r g) a) (by
    rw [Shape.rowMajor_val_two, Shape.rowMajor_val_two]
    show (4 * r.val + g.val) * 16 + a.val = r.val * 64 + (16 * g.val + a.val)
    omega)

/-! ## The 4 × 4 identity -/

/-- The comparison of the row coordinate (plus zero) with the column coordinate, as a bit. -/
def eyeBits : IVec S4x4 1 :=
  cmpi .eq (addi (iotaInDim S4x4 32 0) (broadcastInDim S4x4 ![] bcast_S_S4x4 (constantI S_ 32 0#32))) (iotaInDim S4x4 32 1)

/-- The bit converted to a float. -/
def eyeArr : S4x4.Idx → EReal := uitofp (F := Ideal) .f32 eyeBits

theorem eyeBits_apply : ∀ g' g : Fin 4, eyeBits (ix2 g' g) = if g' = g then 1#1 else 0#1 := by
  decide

/-- It is one on the diagonal and zero off it. -/
theorem eyeArr_apply (g' g : Fin 4) : eyeArr (ix2 g' g) = eye g' g := by
  show (((eyeBits (ix2 g' g)).toNat : ℝ) : EReal) = _
  rw [eyeBits_apply]
  unfold eye
  split
  · show (((1 : ℕ) : ℝ) : EReal) = 1
    rw [Nat.cast_one, EReal.coe_one]
  · show (((0 : ℕ) : ℝ) : EReal) = 0
    rw [Nat.cast_zero, EReal.coe_zero]

/-! ## The Kronecker products -/

/-- The Kronecker product of a 4 × 4 array with a [16, 32] array, as a [64, 128] array. -/
def kronW (e : S4x4.Idx → EReal) (A : S16x32.Idx → EReal) : S64x128.Idx → EReal :=
  shapeCast S64x128 (mulf (F := Ideal) (φ := .f32)
    (broadcastInDim S4x16x4x32 ![0, 1, 2, 3] bcast_S4x1x4x1_S4x16x4x32_0_1_2_3 (broadcastInDim S4x1x4x1 ![0, 2] bcast_S4x4_S4x1x4x1_0_2 e))
    (broadcastInDim S4x16x4x32 ![0, 1, 2, 3] bcast_S1x16x1x32_S4x16x4x32_0_1_2_3 (broadcastInDim S1x16x1x32 ![1, 3] bcast_S16x32_S1x16x1x32_1_3 A)))
    shapeCasts_S4x16x4x32_S64x128

/-- Entry `(16 g' + a, 32 g + j)` of the product is `e (g', g) * A (a, j)`. -/
theorem kronW_apply (e : S4x4.Idx → EReal) (A : S16x32.Idx → EReal) (g' : Fin 4) (a : Fin 16) (g : Fin 4) (j : Fin 32) :
    kronW e A (ix2 (col g' a) (lane g j)) = e (ix2 g' g) * A (ix2 a j) := by
  unfold kronW
  refine (shapeCast_apply _ _ (ix2 (col g' a) (lane g j)) (ix4 g' a g j) (by
    rw [Shape.rowMajor_val_four, Shape.rowMajor_val_two]
    show ((g'.val * 16 + a.val) * 4 + g.val) * 32 + j.val = (16 * g'.val + a.val) * 128 + (32 * g.val + j.val)
    omega)).trans ?_
  rw [mulf_apply]
  refine congrArg₂ (· * ·) ?_ ?_
  · refine (broadcastInDim_apply _ _ _ (ix4 g' a g j) (ix4 g' (0 : Fin 1) g (0 : Fin 1))
      (fun ax => match ax with | ⟨0, _⟩ => rfl | ⟨1, _⟩ => rfl | ⟨2, _⟩ => rfl | ⟨3, _⟩ => rfl)).trans ?_
    exact broadcastInDim_apply _ _ _ (ix4 g' (0 : Fin 1) g (0 : Fin 1)) (ix2 g' g)
      (fun ax => match ax with | ⟨0, _⟩ => rfl | ⟨1, _⟩ => rfl)
  · refine (broadcastInDim_apply _ _ _ (ix4 g' a g j) (ix4 (0 : Fin 1) a (0 : Fin 1) j)
      (fun ax => match ax with | ⟨0, _⟩ => rfl | ⟨1, _⟩ => rfl | ⟨2, _⟩ => rfl | ⟨3, _⟩ => rfl)).trans ?_
    exact broadcastInDim_apply _ _ _ (ix4 (0 : Fin 1) a (0 : Fin 1) j) (ix2 a j)
      (fun ax => match ax with | ⟨0, _⟩ => rfl | ⟨1, _⟩ => rfl)

/-- The Kronecker product of a 4 × 4 array with a [32, 32] array, as a [128, 128] array. -/
def kronG (e : S4x4.Idx → EReal) (B : S32x32.Idx → EReal) : S128x128.Idx → EReal :=
  shapeCast S128x128 (mulf (F := Ideal) (φ := .f32)
    (broadcastInDim S4x32x4x32 ![0, 1, 2, 3] bcast_S4x1x4x1_S4x32x4x32_0_1_2_3 (broadcastInDim S4x1x4x1 ![0, 2] bcast_S4x4_S4x1x4x1_0_2 e))
    (broadcastInDim S4x32x4x32 ![0, 1, 2, 3] bcast_S1x32x1x32_S4x32x4x32_0_1_2_3 (broadcastInDim S1x32x1x32 ![1, 3] bcast_S32x32_S1x32x1x32_1_3 B)))
    shapeCasts_S4x32x4x32_S128x128

/-- Entry `(32 g' + j', 32 g + j)` of the product is `e (g', g) * B (j', j)`. -/
theorem kronG_apply (e : S4x4.Idx → EReal) (B : S32x32.Idx → EReal) (g' : Fin 4) (j' : Fin 32) (g : Fin 4) (j : Fin 32) :
    kronG e B (ix2 (lane g' j') (lane g j)) = e (ix2 g' g) * B (ix2 j' j) := by
  unfold kronG
  refine (shapeCast_apply _ _ (ix2 (lane g' j') (lane g j)) (ix4 g' j' g j) (by
    rw [Shape.rowMajor_val_four, Shape.rowMajor_val_two]
    show ((g'.val * 32 + j'.val) * 4 + g.val) * 32 + j.val = (32 * g'.val + j'.val) * 128 + (32 * g.val + j.val)
    omega)).trans ?_
  rw [mulf_apply]
  refine congrArg₂ (· * ·) ?_ ?_
  · refine (broadcastInDim_apply _ _ _ (ix4 g' j' g j) (ix4 g' (0 : Fin 1) g (0 : Fin 1))
      (fun ax => match ax with | ⟨0, _⟩ => rfl | ⟨1, _⟩ => rfl | ⟨2, _⟩ => rfl | ⟨3, _⟩ => rfl)).trans ?_
    exact broadcastInDim_apply _ _ _ (ix4 g' (0 : Fin 1) g (0 : Fin 1)) (ix2 g' g)
      (fun ax => match ax with | ⟨0, _⟩ => rfl | ⟨1, _⟩ => rfl)
  · refine (broadcastInDim_apply _ _ _ (ix4 g' j' g j) (ix4 (0 : Fin 1) j' (0 : Fin 1) j)
      (fun ax => match ax with | ⟨0, _⟩ => rfl | ⟨1, _⟩ => rfl | ⟨2, _⟩ => rfl | ⟨3, _⟩ => rfl)).trans ?_
    exact broadcastInDim_apply _ _ _ (ix4 (0 : Fin 1) j' (0 : Fin 1) j) (ix2 j' j)
      (fun ax => match ax with | ⟨0, _⟩ => rfl | ⟨1, _⟩ => rfl)

/-- The [32, 32] array of the word of 1/32. -/
def splat32 : S32x32.Idx → EReal :=
  broadcastInDim S32x32 ![] bcast_S_S32x32 (constant (F := Ideal) S_ .f32 0x3D000000#32)

/-- Every entry of it is that word. -/
theorem splat32_apply (i : S32x32.Idx) : splat32 i = cInv32 := rfl

/-! ## A vector of 32 entries repeated four times -/

/-- A vector of 32 entries repeated four times, as a [1, 128] row. -/
def tile (v : S32.Idx → EReal) : S1x128.Idx → EReal :=
  shapeCast S1x128 (shapeCast S128 (broadcastInDim S4x32 ![0, 1] bcast_S1x32_S4x32_0_1 (shapeCast S1x32 v shapeCasts_S32_S1x32))
    shapeCasts_S4x32_S128) shapeCasts_S128_S1x128

/-- Lane `32 g + j` of the row is entry `j` of the vector. -/
theorem tile_apply (v : S32.Idx → EReal) (u : Fin 1) (g : Fin 4) (j : Fin 32) : tile v (ix2 u (lane g j)) = v (ix1 j) := by
  unfold tile
  refine (shapeCast_a_1a_apply _ _ u (lane g j)).trans ?_
  refine (shapeCast_apply _ _ (ix1 (lane g j)) (ix2 g j) (by
    rw [Shape.rowMajor_val_two, Shape.rowMajor_val_one]
    show g.val * 32 + j.val = 32 * g.val + j.val
    omega)).trans ?_
  refine (broadcastInDim_apply _ _ _ (ix2 g j) (ix2 (0 : Fin 1) j)
    (fun ax => match ax with | ⟨0, _⟩ => rfl | ⟨1, _⟩ => rfl)).trans ?_
  exact shapeCast_a_1a_apply _ _ (0 : Fin 1) j

end Cert.ReferenceIdeal.RV

end
-- ==== Proof.RHead.lean ====
/-
  The six operand arrays as the region finds them, in terms of the argument arrays.

  Before the region the host lays the input out four samples to a row, forms the two Kronecker products with the 4 × 4
  identity (the packed weights and the packed averaging matrix) and repeats bias, scale and shift four times. Each operand array
  is therefore one of the terms of the index module applied to an argument array, and read at an entry it is:
  the input at sample `4 r + g`, feature `a`; `w a j` or `1/32` times the identity's entry `(g', g)`; entry `j` of bias, scale, shift.
-/
import proofs.«176657_g2000305897215060_pallasbulk_1035_2_alg».proof.Proof.Gen.ReferenceIdeal.Frame
import proofs.«176657_g2000305897215060_pallasbulk_1035_2_alg».proof.Proof.RHeadIdx

noncomputable section

namespace Cert.ReferenceIdeal.RV

open Cert.ReferenceIdeal Cert.ReferenceIdeal.Gen Cert.Spec Idealize.ShloMosaic Idealize.ShloMosaic.TcCoe Idealize.SL.Sem
open Idealize.ShloMosaic.ValueIdx

variable (m : (ℓ : Loc nD τ sig) → Buf (Elt Ideal) ℓ)

/-! ## The argument arrays by coordinates -/

/-- The input: sample `s`, feature `a`. -/
def argX (c : Dev nD) : Fin 524288 → Fin 16 → EReal :=
  fun s a => (m ((c.tc : Thread nD τ).loc main_arg0) : S524288x16.Idx → EReal) (ix2 s a)
/-- The weights: feature `a`, hidden unit `j`. -/
def argW (c : Dev nD) : Fin 16 → Fin 32 → EReal :=
  fun a j => (m ((c.tc : Thread nD τ).loc main_arg1) : S16x32.Idx → EReal) (ix2 a j)
/-- The bias. -/
def argB (c : Dev nD) : Fin 32 → EReal := fun j => (m ((c.tc : Thread nD τ).loc main_arg2) : S32.Idx → EReal) (ix1 j)
/-- The scale. -/
def argG (c : Dev nD) : Fin 32 → EReal := fun j => (m ((c.tc : Thread nD τ).loc main_arg3) : S32.Idx → EReal) (ix1 j)
/-- The shift. -/
def argBt (c : Dev nD) : Fin 32 → EReal := fun j => (m ((c.tc : Thread nD τ).loc main_arg4) : S32.Idx → EReal) (ix1 j)

/-! ## The operand arrays as terms of the arguments -/

theorem V_xp (c : Dev nD) : (V m c main_call0_v0 : S131072x64.Idx → EReal)
    = xPacked (m ((c.tc : Thread nD τ).loc main_arg0)) := by
  show StableHlo.after hostOps0 (fun b => m (c, b)) (Proc.devRef .tc main_call0_v0) = _
  after_results
  rfl

theorem V_wp (c : Dev nD) : (V m c main_call0_v7 : S64x128.Idx → EReal)
    = kronW eyeArr (m ((c.tc : Thread nD τ).loc main_arg1)) := by
  show StableHlo.after hostOps0 (fun b => m (c, b)) (Proc.devRef .tc main_call0_v7) = _
  after_results
  rfl

theorem V_gm (c : Dev nD) : (V m c main_call0_v9 : S128x128.Idx → EReal) = kronG eyeArr splat32 := by
  show StableHlo.after hostOps0 (fun b => m (c, b)) (Proc.devRef .tc main_call0_v9) = _
  after_results
  rfl

theorem V_bp (c : Dev nD) : (V m c main_call0_v13 : S1x128.Idx → EReal) = tile (m ((c.tc : Thread nD τ).loc main_arg2)) := by
  show StableHlo.after hostOps0 (fun b => m (c, b)) (Proc.devRef .tc main_call0_v13) = _
  after_results
  rfl

theorem V_gp (c : Dev nD) : (V m c main_call0_v17 : S1x128.Idx → EReal) = tile (m ((c.tc : Thread nD τ).loc main_arg3)) := by
  show StableHlo.after hostOps0 (fun b => m (c, b)) (Proc.devRef .tc main_call0_v17) = _
  after_results
  rfl

theorem V_bep (c : Dev nD) : (V m c main_call0_v21 : S1x128.Idx → EReal) = tile (m ((c.tc : Thread nD τ).loc main_arg4)) := by
  show StableHlo.after hostOps0 (fun b => m (c, b)) (Proc.devRef .tc main_call0_v21) = _
  after_results
  rfl

/-! ## Read at an entry -/

/-- Column `16 g + a` of packed row `r` is feature `a` of sample `4 r + g`. -/
theorem xp_apply (c : Dev nD) (r : Fin 131072) (g : Fin 4) (a : Fin 16) :
    (V m c main_call0_v0 : S131072x64.Idx → EReal) (ix2 r (col g a)) = argX m c (smp r g) a :=
  (congrFun (V_xp m c) (ix2 r (col g a))).trans (xPacked_apply _ r g a)

/-- The packed weights are block diagonal. -/
theorem wp_apply (c : Dev nD) (g' : Fin 4) (a : Fin 16) (g : Fin 4) (j : Fin 32) :
    (V m c main_call0_v7 : S64x128.Idx → EReal) (ix2 (col g' a) (lane g j)) = eye g' g * argW m c a j :=
  (congrFun (V_wp m c) (ix2 (col g' a) (lane g j))).trans
    ((kronW_apply _ _ g' a g j).trans (congrArg (· * argW m c a j) (eyeArr_apply g' g)))

/-- The packed averaging matrix has 1/32 in its diagonal blocks. -/
theorem gm_apply (c : Dev nD) (g' : Fin 4) (j' : Fin 32) (g : Fin 4) (j : Fin 32) :
    (V m c main_call0_v9 : S128x128.Idx → EReal) (ix2 (lane g' j') (lane g j)) = eye g' g * cInv32 :=
  (congrFun (V_gm m c) (ix2 (lane g' j') (lane g j))).trans
    ((kronG_apply _ _ g' j' g j).trans (congrArg (· * cInv32) (eyeArr_apply g' g)))

/-- The bias row repeats the bias. -/
theorem bp_apply (c : Dev nD) (g : Fin 4) (j : Fin 32) :
    (V m c main_call0_v13 : S1x128.Idx → EReal) (ix2 (0 : Fin 1) (lane g j)) = argB m c j :=
  (congrFun (V_bp m c) (ix2 (0 : Fin 1) (lane g j))).trans (tile_apply _ 0 g j)

/-- The scale row repeats the scale. -/
theorem gp_apply (c : Dev nD) (g : Fin 4) (j : Fin 32) :
    (V m c main_call0_v17 : S1x128.Idx → EReal) (ix2 (0 : Fin 1) (lane g j)) = argG m c j :=
  (congrFun (V_gp m c) (ix2 (0 : Fin 1) (lane g j))).trans (tile_apply _ 0 g j)

/-- The shift row repeats the shift. -/
theorem bep_apply (c : Dev nD) (g : Fin 4) (j : Fin 32) :
    (V m c main_call0_v21 : S1x128.Idx → EReal) (ix2 (0 : Fin 1) (lane g j)) = argBt m c j :=
  (congrFun (V_bep m c) (ix2 (0 : Fin 1) (lane g j))).trans (tile_apply _ 0 g j)

end Cert.ReferenceIdeal.RV

end
-- ==== Proof.RRun.lean ====
/-
  The run of the program with its result array at the specification.

  The packed result array at row `r`, lane `32 g + j` is the specification at sample `4 r + g`, hidden unit `j`: the operand
  arrays read at an entry are the argument arrays through the block-diagonal layout, and the packed row function collapses
  on that layout. Sample `s` sits in packed row `s / 4`, group `s % 4`, and `4 (s / 4) + s % 4 = s`. The reshape after the
  region reads packed row `s / 4`, lane `32 (s % 4) + j` for sample `s`, unit `j`; so the program ends with its result array
  at the specification of its argument arrays, entry by entry, and with the argument arrays unchanged.
-/
import proofs.«176657_g2000305897215060_pallasbulk_1035_2_alg».proof.Proof.RTail
import proofs.«176657_g2000305897215060_pallasbulk_1035_2_alg».proof.Proof.RArray
import proofs.«176657_g2000305897215060_pallasbulk_1035_2_alg».proof.Proof.RHead

noncomputable section

namespace Cert.ReferenceIdeal.RV

open Cert.ReferenceIdeal Cert.ReferenceIdeal.Gen Cert.Spec Idealize.ShloMosaic Idealize.ShloMosaic.TcCoe Idealize.SL.Sem
open Idealize.ShloMosaic.ValueIdx

variable (m : (ℓ : Loc nD τ sig) → Buf (Elt Ideal) ℓ) (ρ : Dev nD → PrngReg)

/-- The packed result at row `r`, lane `32 g + j` is the specification at sample `4 r + g`, hidden unit `j`. -/
theorem packedOut_lane (c : Dev nD) (r : Fin 131072) (g : Fin 4) (j : Fin 32) :
    packedOut m c r (lane g j)
      = Cert.Spec.outR (argX m c) (argW m c) (argB m c) (argG m c) (argBt m c) (smp r g) j := by
  unfold packedOut
  exact outRow_lane (argX m c) (argW m c) (argB m c) (argG m c) (argBt m c) r
    (fun l => Vx m c (ix2 r l)) (fun l q => Vw m c (ix2 l q)) (fun q => Vb m c (ix2 (0 : Fin 1) q))
    (fun q => Vg m c (ix2 (0 : Fin 1) q)) (fun q => Vbe m c (ix2 (0 : Fin 1) q)) (fun l q => Vgm m c (ix2 l q))
    (fun g' a => xp_apply m c r g' a) (fun g' a g j => wp_apply m c g' a g j) (fun g j => bp_apply m c g j)
    (fun g' j' g j => gm_apply m c g' j' g j) (fun g j => gp_apply m c g j) (fun g j => bep_apply m c g j) g j

/-- The packed result array at packed row `s / 4`, lane `32 (s % 4) + j` is the specification at sample `s`, unit `j`. -/
theorem packedArr_sample (c : Dev nD) (s : Fin 524288) (j : Fin 32) :
    packedArr m c (ix2 (⟨s.val / 4, RTail.row_lt s⟩ : Fin 131072) (⟨32 * (s.val % 4) + j.val, RTail.lane_lt s j⟩ : Fin 128))
      = Cert.Spec.outR (argX m c) (argW m c) (argB m c) (argG m c) (argBt m c) s j := by
  have hg : s.val % 4 < 4 := Nat.mod_lt _ (by decide)
  have e := packedOut_lane m c ⟨s.val / 4, RTail.row_lt s⟩ ⟨s.val % 4, hg⟩ j
  have hs : smp ⟨s.val / 4, RTail.row_lt s⟩ ⟨s.val % 4, hg⟩ = s :=
    Fin.ext (by show 4 * (s.val / 4) + s.val % 4 = s.val; omega)
  rw [hs] at e
  exact e

/-- At the compiled mesh, from any memory with zero counters: every run ends with the result array at the specification of
    the argument arrays, entry by entry, and with the five argument arrays unchanged. -/
theorem run : θ_run (defs (F := Ideal)) (onTc (τ := τ) (main (F := Ideal))) ⟨m, fun _ => 0, ρ⟩ (fun r => ∀ c : Dev nD,
      r.2.mem ((c.tc : Thread nD τ).loc main_v0)
        = (fun i => Cert.Spec.outR (argX m c) (argW m c) (argB m c) (argG m c) (argBt m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  RTail.run_of_final m ρ (packedArr m) (final6 m)
    (fun c => Cert.Spec.outR (argX m c) (argW m c) (argB m c) (argG m c) (argBt m c)) (packedArr_sample m)

end Cert.ReferenceIdeal.RV

end
-- ==== Proof.lean ====
/-
  Two fused linear + layer-normalisation + rectifier programs compute the same function of real inputs.

  Both pack several samples side by side on the lanes of one row and multiply by block-diagonal matrices, so that each
  sample meets only its own copy of the weights: the first packs eight samples and has the mean over the hidden units
  taken off the weights and the bias on the host beforehand; the second packs four and takes the mean off the activation
  inside, by one more product with the block-diagonal averaging matrix. Entry by entry, on the extended reals:

  * a product with a block-diagonal matrix is the sum over the sample's own block, the other blocks contributing
    `x * 0 = 0` (true of every extended real), which gives each program's result as a function of the argument arrays
    (`Spec.outK`, `Spec.outR`: the two half proofs, read off each program's run of its grid and its host operations);
  * the mean over the hidden units is linear, so centring the weights and bias first or the activation afterwards agree
    once the inputs, weights and bias are real numbers, which the precondition says (`Spec.outK_eq_outR`).

  The three frames are the generated ones; the idealization rewrote no operation.
-/
import proofs.«176657_g2000305897215060_pallasbulk_1035_2_alg».proof.Defs
import proofs.«176657_g2000305897215060_pallasbulk_1035_2_alg».proof.Proof.Gen.Kernel
import proofs.«176657_g2000305897215060_pallasbulk_1035_2_alg».proof.Proof.Gen.KernelIdeal
import proofs.«176657_g2000305897215060_pallasbulk_1035_2_alg».proof.Proof.Gen.ReferenceIdeal
import proofs.«176657_g2000305897215060_pallasbulk_1035_2_alg».proof.Proof.Gen.Pre_finite_inputs
import proofs.«176657_g2000305897215060_pallasbulk_1035_2_alg».proof.Proof.Claims
import proofs.«176657_g2000305897215060_pallasbulk_1035_2_alg».proof.Proof.KRun
import proofs.«176657_g2000305897215060_pallasbulk_1035_2_alg».proof.Proof.RRun

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of_runs Cert.KernelIdeal.KV.run Cert.ReferenceIdeal.RV.run⟩

end Cert.Proof

end
